-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S32768x256 : Shape := ⟨2, ![32768, 256]⟩
abbrev S4096x32768 : Shape := ⟨2, ![4096, 32768]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_

variable [Facts]

def fn {F : FTy → Type} [FloatOps F] (main_arg0 : FVec F S4096x256 .f32) (main_arg1 : FVec F S32768x256 .f32) (main_arg2 : IVec S4096x32768 1) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  main_v8
-- ==== Kernel.lean ====
abbrev S4096x256 : Shape := ⟨2, ![4096, 256]⟩
abbrev S32768x256 : Shape := ⟨2, ![32768, 256]⟩
abbrev S4096x32768 : Shape := ⟨2, ![4096, 32768]⟩
abbrev S_ : Shape := ⟨0, ![]⟩
abbrev S4096 : Shape := ⟨1, ![4096]⟩
abbrev S4096x1 : Shape := ⟨2, ![4096, 1]⟩
abbrev S32768 : Shape := ⟨1, ![32768]⟩
abbrev S32768x1 : Shape := ⟨2, ![32768, 1]⟩
abbrev S512x256 : Shape := ⟨2, ![512, 256]⟩
abbrev S512x1024 : Shape := ⟨2, ![512, 1024]⟩
abbrev S512x1 : Shape := ⟨2, ![512, 1]⟩
abbrev S1024x256 : Shape := ⟨2, ![1024, 256]⟩
abbrev S256x1024 : Shape := ⟨2, ![256, 1024]⟩
abbrev S512 : Shape := ⟨1, ![512]⟩

abbrev nBuf : Space → Nat
  | .hbm => 46
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S32768x256, .f32⟩
  | .hbm, ⟨2, _⟩ => ⟨S4096x32768, .i1⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .bf16⟩
  | .hbm, ⟨14, _⟩ => ⟨S32768x256, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x256, .f32⟩
  | .hbm, ⟨23, _⟩ => ⟨S32768x256, .f32⟩
  | .hbm, ⟨24, _⟩ => ⟨S32768x256, .bf16⟩
  | .hbm, ⟨25, _⟩ => ⟨S4096x32768, .i32⟩
  | .hbm, ⟨26, _⟩ => ⟨S4096x1, .f32⟩
  | .hbm, ⟨27, _⟩ => ⟨S4096x1, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S32768x256, .bf16⟩
  | .local _ .vmem, ⟨3, _⟩ => ⟨S512x1024, .i32⟩
  | .local _ .vmem, ⟨4, _⟩ => ⟨S512x1024, .i32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  reducesTo_S32768x256_S32768_d1 : S32768x256.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  natLt_1_32 : 1 < 32
  inb_S512x1_S512x1_0_0 : ∀ a, (![0, 0] : Fin 2 → Nat) a + S512x1.size a ≤ S512x1.size a
  h_S512x1 : 0 < S512x1.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S1024x256 : 0 < S1024x256.numel
  shapeCasts_S1024x256_S1024x256 : S1024x256.ShapeCasts S1024x256
  transposes_S1024x256_p1_0_S256x1024 : S1024x256.Transposes [1, 0] S256x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  shapeCasts_S512x1_S512x1 : S512x1.ShapeCasts S512x1
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S512x256_S256x1024_S512x1024_1_0_0_1_n_n_wf : DotDims.WF S512x256 S256x1024 S512x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S32768x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32768x256.size a ≤ S32768x256.size a
  hwx0_1 : ∀ i : grid0.Coords, EltTy.bits .bf16 = 32 ∨ (Rect.block (s := S32768x256) S32768x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x32768.size a
  hwx0_2 : ∀ i : grid0.Coords, EltTy.bits .i32 = 32 ∨ (Rect.block (s := S4096x32768) S512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v8) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S32768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S32768x256 : Shape := ⟨2, ![32768, 256]⟩
abbrev S4096x32768 : Shape := ⟨2, ![4096, 32768]⟩
abbrev S_ : Shape := ⟨0, ![]⟩
abbrev S4096 : Shape := ⟨1, ![4096]⟩
abbrev S4096x1 : Shape := ⟨2, ![4096, 1]⟩
abbrev S32768 : Shape := ⟨1, ![32768]⟩
abbrev S32768x1 : Shape := ⟨2, ![32768, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S32768x256, .f32⟩
  | .hbm, ⟨2, _⟩ => ⟨S4096x32768, .i1⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S32768x256, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x256, .f32⟩
  | .hbm, ⟨22, _⟩ => ⟨S32768x256, .f32⟩
  | .hbm, ⟨23, _⟩ => ⟨S4096x32768, .f32⟩
  | .hbm, ⟨24, _⟩ => ⟨S_, .f32⟩
  | .hbm, ⟨25, _⟩ => ⟨S4096x32768, .f32⟩
  | .hbm, ⟨26, _⟩ => ⟨S4096x32768, .f32⟩
  | .hbm, ⟨27, _⟩ => ⟨S4096x32768, .f32⟩
  | .hbm, ⟨28, _⟩ => ⟨S4096x32768, .f32⟩
  | .hbm, ⟨29, _⟩ => ⟨S4096x32768, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096x32768, .f32⟩
  | .hbm, ⟨37, _⟩ => ⟨S4096x32768, .f32⟩
  | .hbm, ⟨38, _⟩ => ⟨S4096x32768, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S32768x256_S32768_d1 : S32768x256.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  bcast_S_S4096x32768 : S_.BroadcastsInDim S4096x32768 (![] : Fin 0 → Fin S4096x32768.rank)
  reducesTo_S4096x32768_S4096_d1 : S4096x32768.ReducesTo [1] S4096
  bcast_S_S4096 : S_.BroadcastsInDim S4096 (![] : Fin 0 → Fin S4096.rank)
  reducesTo_S4096_S_d0 : S4096.ReducesTo [0] S_
  dot_S4096x256_S32768x256_S4096x32768_1_1_0_0_n_n_wf : DotDims.WF S4096x256 S32768x256 S4096x32768 [1] [1] [0] [0] [] []

variable [Facts₀]

def dot_S4096x256_S32768x256_S4096x32768_1_1_0_0_n_n : DotDims S4096x256 S32768x256 S4096x32768 where
  lhsContracting := [1]
  rhsContracting := [1]
  lhsNonContracting := [0]
  rhsNonContracting := [0]
  lhsBatch := []
  rhsBatch := []
  wf := dot_S4096x256_S32768x256_S4096x32768_1_1_0_0_n_n_wf

class Facts : Prop extends Facts₀ where

variable [Facts]
-- ==== Proof.CaseValues.lean ====
/-
  What one run of the kernel body leaves in the two accumulator blocks, for each of its two control cases, at any float
  instance.

  The body, at grid point (i, j), reads the query block (512 rows), 1024 rows of the resident key matrix starting at row
  1024·j, and the mask block; from them it forms two columns of 512 numbers, the block's contribution to the positive
  and to the negative sums.  At the first point of a row of the grid (j = 0) it first stores zeros in both accumulators
  and then adds the contributions to what it reads back, the zeros; at every other point it adds them to what the
  accumulators held before.  Each accumulator is written by one store of its whole block, so what the body leaves is
  that store's value: the payload of the loads, a whole-block load being the block itself.
-/
import proofs.«110843_j78434692759648_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem

namespace Cert.InfoNce.Kernel

open Cert.KernelIdeal Cert.KernelIdeal.Gen

variable {F : FTy → Type} [FloatOps F] [Named F]

theorem zero_offsets : (![0, 0] : Fin 2 → Nat) = fun _ => 0 := funext fun a => by fin_cases a <;> rfl

/-- The 1024 key rows the body reads at a grid point: rows 1024·j to 1024·j + 1023 of the resident key matrix. -/
abbrev keyRows (i : grid0.Coords) (x1 : Vec F S32768x256 .bf16) : Vec F S1024x256 .bf16 :=
  View.ld x1 (Rect.unit (s := S32768x256) (k0_off1 i) S1024x256.size (k0_off1_inb i))

/-- Past the first point of a grid row, the positive accumulator ends at its old contents plus the block's positive
    contribution. -/
theorem later_pos (c : Dev nD) (i : grid0.Coords) (a2 : Memref sig .tc .vmem S512x256 .bf16) (h2 : a2.IsWhole) (a3 : Memref sig .tc .vmem S32768x256 .bf16) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (hc : ¬cond0_0 i)
    (x0 : Vec F S512x256 .bf16) (x1 : Vec F S32768x256 .bf16) (x2 : Vec F S512x1024 .i32) (xo3 : Vec F S512x1 .f32) (xo4 : Vec F S512x1 .f32) :
    out0_B_3 c i a2 h2 a3 h3 a4 h4 a5 h5 a6 h6 hc x0 x1 x2 xo3 xo4 = k0_pay5 x0 (keyRows i x1) x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  rw [View.canon_unit_zero zero_offsets]
  simp only [View.readAt_eq_ld, h2.read_unread, h3.read_unread, h4.read_unread, h5.read_unread, View.ld_unit_zero (S := S512x256) zero_offsets, View.ld_unit_zero (S := S512x1024) zero_offsets, View.ld_unit_zero (S := S512x1) zero_offsets]

/-- Past the first point of a grid row, the negative accumulator ends at its old contents plus the block's negative
    contribution. -/
theorem later_neg (c : Dev nD) (i : grid0.Coords) (a2 : Memref sig .tc .vmem S512x256 .bf16) (h2 : a2.IsWhole) (a3 : Memref sig .tc .vmem S32768x256 .bf16) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (hc : ¬cond0_0 i)
    (x0 : Vec F S512x256 .bf16) (x1 : Vec F S32768x256 .bf16) (x2 : Vec F S512x1024 .i32) (xo3 : Vec F S512x1 .f32) (xo4 : Vec F S512x1 .f32) :
    out0_B_4 c i a2 h2 a3 h3 a4 h4 a5 h5 a6 h6 hc x0 x1 x2 xo3 xo4 = k0_pay6 x0 (keyRows i x1) x2 xo4 := by
  unfold out0_B_4
  rw [View.read_writes_eq_canon _ _ _ (cover0_B_4 c i a2 h2 a3 h3 a4 h4 a5 h5 a6 h6 hc x0 x1 x2 xo3 xo4)]
  unfold kernelRun0_B
  dsimp only
  rw [View.canon_unit_zero zero_offsets]
  simp only [View.readAt_eq_ld, h2.read_unread, h3.read_unread, h4.read_unread, h6.read_unread, View.ld_unit_zero (S := S512x256) zero_offsets, View.ld_unit_zero (S := S512x1024) zero_offsets, View.ld_unit_zero (S := S512x1) zero_offsets]

/-- At the first point of a grid row, the positive accumulator ends at the zero block plus the block's positive
    contribution: the second store's value reads back the first store, the zeros. -/
theorem first_pos (c : Dev nD) (i : grid0.Coords) (a2 : Memref sig .tc .vmem S512x256 .bf16) (h2 : a2.IsWhole) (a3 : Memref sig .tc .vmem S32768x256 .bf16) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (hc : cond0_0 i)
    (x0 : Vec F S512x256 .bf16) (x1 : Vec F S32768x256 .bf16) (x2 : Vec F S512x1024 .i32) :
    out0_A_3 c i a2 h2 a3 h3 a4 h4 a5 h5 a6 h6 hc x0 x1 x2 = k0_pay5 x0 (keyRows i x1) x2 (k0_pay1 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S512x1) zero_offsets, View.readCov_unit_zero (S := S512x1) _ zero_offsets]
  simp only [View.readAt_eq_ld, h2.read_unread, h3.read_unread, h4.read_unread, View.ld_unit_zero (S := S512x256) zero_offsets, View.ld_unit_zero (S := S512x1024) zero_offsets]
  rfl

/-- At the first point of a grid row, the negative accumulator ends at the zero block plus the block's negative
    contribution. -/
theorem first_neg (c : Dev nD) (i : grid0.Coords) (a2 : Memref sig .tc .vmem S512x256 .bf16) (h2 : a2.IsWhole) (a3 : Memref sig .tc .vmem S32768x256 .bf16) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (hc : cond0_0 i)
    (x0 : Vec F S512x256 .bf16) (x1 : Vec F S32768x256 .bf16) (x2 : Vec F S512x1024 .i32) :
    out0_A_4 c i a2 h2 a3 h3 a4 h4 a5 h5 a6 h6 hc x0 x1 x2 = k0_pay6 x0 (keyRows i x1) x2 (k0_pay2 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S512x1) zero_offsets, View.readCov_unit_zero (S := S512x1) _ zero_offsets]
  simp only [View.readAt_eq_ld, h2.read_unread, h3.read_unread, h4.read_unread, View.ld_unit_zero (S := S512x256) zero_offsets, View.ld_unit_zero (S := S512x1024) zero_offsets]
  rfl

end Cert.InfoNce.Kernel

end
-- ==== Proof.Blocks.lean ====
/-
  The grid, and what the two accumulators hold after each grid point, at any float instance.

  The grid has 8 × 32 points, walked row by row: point t = 32·i + j works on query rows 512·i … 512·i + 511 and key rows
  1024·j … 1024·j + 1023.  The query window's block at t is block i of the query array, the mask window's block is
  block (i, j) of the mask, the key window always holds the whole key matrix (of which the body reads the 1024 rows
  from 1024·j), and both accumulator windows sit at block i of their [4096, 1] arrays.  A block's entry (p, ·) is the
  array's entry at block index × block size + p on each axis.

  After point t the accumulators hold: at j = 0, zero plus the point's contributions; at j > 0, what they held after
  point t − 1 plus the point's contributions.
-/
import proofs.«110843_j78434692759648_2_alg».proof.Proof.Gen.KernelIdeal.Frame
import proofs.«110843_j78434692759648_2_alg».proof.Proof.CaseValues
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.InfoNce.Kernel

open Cert.KernelIdeal Cert.KernelIdeal.Gen

variable {F : FTy → Type} [FloatOps F] [Named F]
variable (m : (ℓ : Loc nD τ sig) → Buf (Elt F) ℓ) (c : Dev nD)

/-- Where each window's block sits at grid point t = 32·i + j, and which key rows the body reads there. -/
theorem index_facts : ∀ t : Fin cfg0.N,
    win0_0.index t (0 : Fin 2) = t.val / 32 ∧ win0_0.index t (1 : Fin 2) = 0
    ∧ win0_1.index t (0 : Fin 2) = 0 ∧ win0_1.index t (1 : Fin 2) = 0
    ∧ win0_2.index t (0 : Fin 2) = t.val / 32 ∧ win0_2.index t (1 : Fin 2) = t.val % 32
    ∧ win0_3.index t (0 : Fin 2) = t.val / 32 ∧ win0_3.index t (1 : Fin 2) = 0
    ∧ win0_4.index t (0 : Fin 2) = t.val / 32 ∧ win0_4.index t (1 : Fin 2) = 0
    ∧ k0_off1 (grid0.coords t) (0 : Fin 2) = 1024 * (t.val % 32) ∧ k0_off1 (grid0.coords t) (1 : Fin 2) = 0 :=
  (by decide +kernel : ∀ t : Fin grid0.N, _)

/-- The query block's entry (p, d) at point t is the query array's entry (512·i + p, d). -/
theorem queryBlock_apply (t : Fin cfg0.N) (p : Fin 512) (d : Fin 256) (r : Fin 4096) (hr : r.val = 512 * (t.val / 32) + p.val) :
    (iblk m c 0 t : Vec F S512x256 .bf16) (ix2 p d) = V m c main_v8 (ix2 r d) := by
  unfold iblk
  rw [View.read_apply]
  show V m c main_v8 _ = V m c main_v8 _
  refine congrArg (V m c main_v8) ?_
  funext a
  apply Fin.ext
  have hf := index_facts t
  match a with
  | ⟨0, _⟩ => show win0_0.index t (0 : Fin 2) * 512 + 1 * p.val = r.val; rw [hf.1]; omega
  | ⟨1, _⟩ => show win0_0.index t (1 : Fin 2) * 256 + 1 * d.val = d.val; rw [hf.2.1]; omega

/-- The mask block's entry (p, q) at point t is the mask array's entry (512·i + p, 1024·j + q). -/
theorem maskBlock_apply (t : Fin cfg0.N) (p : Fin 512) (q : Fin 1024) (r : Fin 4096) (k : Fin 32768)
    (hr : r.val = 512 * (t.val / 32) + p.val) (hk : k.val = 1024 * (t.val % 32) + q.val) :
    (iblk m c 2 t : Vec F S512x1024 .i32) (ix2 p q) = V m c main_v18 (ix2 r k) := by
  unfold iblk
  rw [View.read_apply]
  show V m c main_v18 _ = V m c main_v18 _
  refine congrArg (V m c main_v18) ?_
  funext a
  apply Fin.ext
  have hf := index_facts t
  match a with
  | ⟨0, _⟩ => show win0_2.index t (0 : Fin 2) * 512 + 1 * p.val = r.val; rw [hf.2.2.2.2.1]; omega
  | ⟨1, _⟩ => show win0_2.index t (1 : Fin 2) * 1024 + 1 * q.val = k.val; rw [hf.2.2.2.2.2.1]; omega

/-- The key rows read at point t: entry (q, d) is the key array's entry (1024·j + q, d). -/
theorem keyRows_apply (t : Fin cfg0.N) (q : Fin 1024) (d : Fin 256) (k : Fin 32768)
    (hk : k.val = 1024 * (t.val % 32) + q.val) :
    keyRows (grid0.coords t) (iblk m c 1 t : Vec F S32768x256 .bf16) (ix2 q d) = V m c main_v17 (ix2 k d) := by
  unfold iblk
  show View.read _ _ _ _ = _
  rw [View.read_apply]
  show V m c main_v17 _ = V m c main_v17 _
  refine congrArg (V m c main_v17) ?_
  funext a
  apply Fin.ext
  have hf := index_facts t
  match a with
  | ⟨0, _⟩ => show win0_1.index t (0 : Fin 2) * 32768 + 1 * (k0_off1 (grid0.coords t) (0 : Fin 2) + 1 * q.val) = k.val; rw [hf.2.2.1, hf.2.2.2.2.2.2.2.2.2.2.1]; omega
  | ⟨1, _⟩ => show win0_1.index t (1 : Fin 2) * 256 + 1 * (k0_off1 (grid0.coords t) (1 : Fin 2) + 1 * d.val) = d.val; rw [hf.2.2.2.1, hf.2.2.2.2.2.2.2.2.2.2.2]; omega

/-- After the first point of a grid row: the zero blocks plus the point's contributions. -/
theorem outs_first (t : Fin cfg0.N) (h0 : t.val % 32 = 0) :
    outsAt0 m c t.val t.isLt
      = (k0_pay5 (iblk m c 0 t) (keyRows (grid0.coords t) (iblk m c 1 t)) (iblk m c 2 t) (k0_pay1 (F := F)),
         k0_pay6 (iblk m c 0 t) (keyRows (grid0.coords t) (iblk m c 1 t)) (iblk m c 2 t) (k0_pay2 (F := F))) := by
  rw [outsAt0_A m c t h0,
    first_pos c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
    first_neg c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)]

/-- After a later point of a grid row: what the point before left plus the point's contributions. -/
theorem outs_later (t : Fin cfg0.N) (h0 : ¬t.val % 32 = 0) :
    outsAt0 m c t.val t.isLt
      = (k0_pay5 (iblk m c 0 t) (keyRows (grid0.coords t) (iblk m c 1 t)) (iblk m c 2 t)
           (outsAt0 m c (t.val - 1) (Nat.lt_of_le_of_lt (Nat.sub_le _ _) t.isLt)).1,
         k0_pay6 (iblk m c 0 t) (keyRows (grid0.coords t) (iblk m c 1 t)) (iblk m c 2 t)
           (outsAt0 m c (t.val - 1) (Nat.lt_of_le_of_lt (Nat.sub_le _ _) t.isLt)).2) := by
  rw [outsAt0_B m c t h0,
    later_pos c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2,
    later_neg c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2]

end Cert.InfoNce.Kernel

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Payloads.lean ====
/-
  The kernel body's arithmetic, read entry by entry at the ideal instance.

  With q the query block (512 rows of 256 numbers), k the 1024 key rows of the grid point and w the mask block, the body
  forms E(p, j) = exp((Σ_d q(p, d) · k(j, d)) · c), c the reciprocal of the temperature; the positive contribution of
  row p is the sum over j of E(p, j) where the mask word is nonzero, the total is the sum over all j, and the negative
  contribution is the total minus the positive one.  A change of float format is the identity here, the product into
  a zero accumulator is the plain sum of products, and the key block enters transposed, so the contraction runs over the
  last axis of both operands.  The accumulators take "old contents + contribution".
-/
import proofs.«110843_j78434692759648_2_alg».proof.Proof.Gen.KernelIdeal.Skeleton
import proofs.«110843_j78434692759648_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.InfoNce.Kernel

open Cert.KernelIdeal Cert.KernelIdeal.Gen

/-- The kernel's scale: the reciprocal of the temperature, by name. -/
abbrev invT : EReal := Named.named (F := Ideal) κ "inv_temperature" (φ := .f32) 0x41649249#32

/-- A vector reshaped to a column reads, at (p, 0), the vector's entry p. -/
theorem column_of_vector {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column reshaped to a vector reads, at p, the column's entry (p, 0). -/
theorem vector_of_column {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- The sum along the rows of a [512, 1024] block, at row p. -/
theorem rowSum_apply (src : FVec Ideal S512x1024 .f32) (h : S512x1024.Reduces [1] S512) (hφ : FKind.Formats .f32)
    (hacc : (0x00000000#32 : BitVec 32) = 0x00000000#32) (p : Fin 512) :
    multiReduction .add [1] S512 src 0x00000000#32 h hφ hacc (ix1 p) = ∑ q : Fin 1024, src (ix2 p q) := by
  refine (Ideal.multiReduction_add_single src 0x00000000#32 h hφ hacc (ix1 p)).trans ?_
  refine Finset.sum_congr rfl fun q _ => ?_
  exact congrArg src (funext fun a => Fin.ext (by match a with | ⟨0, _⟩ => rfl | ⟨1, _⟩ => rfl))

/-- The exponential of the scaled product of query row p and key row q. -/
theorem expLogit_apply (v3 : FVec Ideal S512x256 .bf16) (v8 : FVec Ideal S1024x256 .bf16) (p : Fin 512) (q : Fin 1024) :
    k0_pay3 (F := Ideal) v3 v8 (ix2 p q) = Ideal.exp ((∑ d : Fin 256, v3 (ix2 p d) * v8 (ix2 q d)) * invT) := by
  unfold k0_pay3
  dsimp only
  refine congrArg (fun z => Ideal.exp (z * invT)) ?_
  refine (Cert.PlainDot.matmul_zero_ix2 dot_S512x256_S256x1024_S512x1024_1_0_0_1_n_n rfl none _ _ p q).trans ?_
  refine Finset.sum_congr rfl fun d _ => ?_
  refine congrArg₂ (· * ·) (congrFun (shapeCast_self v3 _) _) ?_
  refine (transpose_ix2_apply _ _ d q).trans ?_
  exact congrFun (shapeCast_self v8 _) _

/-- The positive contribution of row p: the sum of the exponentials whose mask word is nonzero. -/
theorem posPart_apply (v3 : FVec Ideal S512x256 .bf16) (v8 : FVec Ideal S1024x256 .bf16) (v15 : IVec S512x1024 32) (p : Fin 512) (u : Fin 1) :
    k0_pay4 (F := Ideal) v3 v8 v15 (ix2 p u)
      = ∑ q : Fin 1024, Scalar.select (IntOp.cmpi .ne (v15 (ix2 p q)) 0#32) (k0_pay3 (F := Ideal) v3 v8 (ix2 p q)) (Ideal.ofBits .f32 0x00000000#32) := by
  unfold k0_pay4
  dsimp only
  refine (column_of_vector _ _ p u).trans ?_
  refine (rowSum_apply _ _ _ _ p).trans ?_
  rfl

/-- The positive accumulator's new contents: the old contents plus the positive contribution. -/
theorem posAcc_apply (v3 : FVec Ideal S512x256 .bf16) (v8 : FVec Ideal S1024x256 .bf16) (v15 : IVec S512x1024 32)
    (v24 : FVec Ideal S512x1 .f32) (p : Fin 512) (u : Fin 1) :
    k0_pay5 (F := Ideal) v3 v8 v15 v24 (ix2 p u) = v24 (ix2 p u) + k0_pay4 (F := Ideal) v3 v8 v15 (ix2 p u) := by
  unfold k0_pay5
  exact congrArg (· + k0_pay4 (F := Ideal) v3 v8 v15 (ix2 p u)) (congrFun (shapeCast_self v24 _) _)

/-- The negative accumulator's new contents: the old contents plus (the sum of all exponentials of the row minus the
    positive contribution). -/
theorem negAcc_apply (v3 : FVec Ideal S512x256 .bf16) (v8 : FVec Ideal S1024x256 .bf16) (v15 : IVec S512x1024 32)
    (v28 : FVec Ideal S512x1 .f32) (p : Fin 512) (u : Fin 1) :
    k0_pay6 (F := Ideal) v3 v8 v15 v28 (ix2 p u)
      = v28 (ix2 p u) + ((∑ q : Fin 1024, k0_pay3 (F := Ideal) v3 v8 (ix2 p q)) - k0_pay4 (F := Ideal) v3 v8 v15 (ix2 p u)) := by
  unfold k0_pay6
  try dsimp only
  refine congrArg₂ (· + ·) (congrFun (shapeCast_self v28 _) _) ?_
  refine congrArg (· - k0_pay4 (F := Ideal) v3 v8 v15 (ix2 p u)) ?_
  refine (column_of_vector _ _ p u).trans ?_
  exact rowSum_apply _ _ _ _ p

/-- The zero blocks the first point of a grid row stores. -/
theorem zeroPos_apply (j : S512x1.Idx) : k0_pay1 (F := Ideal) j = 0 := Ideal.ofBits_zero_f32
theorem zeroNeg_apply (j : S512x1.Idx) : k0_pay2 (F := Ideal) j = 0 := Ideal.ofBits_zero_f32

end Cert.InfoNce.Kernel

end
-- ==== Proof.LibRealSums.lean ====
/-
  Extended reals that are real numbers: closure facts, and the variance identity.

  An extended real is called real here when it is the coercion of a real number.  The reals inside the extended reals
  are closed under sum, difference, product, finite sums, the quotient by a nonzero real and the inverse square root of
  a positive real; on them each of these operations is the coercion of the real operation.  The last section is the
  identity between the two textbook forms of the variance of finitely many reals: the mean of the squared deviations
  from the mean equals the mean of the squares minus the square of the mean.  General lemmas: any index type, any extent.
-/
import Idealize.ShloMosaic.PureOps.Ideal.Laws

namespace Cert.RealSums

open Idealize.ShloMosaic

/-- The extended real x is (the coercion of) a real number. -/
def IsR (x : EReal) : Prop := ∃ r : ℝ, x = (r : EReal)

theorem isR_coe (r : ℝ) : IsR (r : EReal) := ⟨r, rfl⟩

theorem isR_zero : IsR 0 := ⟨0, rfl⟩

theorem isR_add {x y : EReal} (hx : IsR x) (hy : IsR y) : IsR (x + y) := by
  obtain ⟨a, rfl⟩ := hx; obtain ⟨b, rfl⟩ := hy; exact ⟨a + b, (EReal.coe_add a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

/-- The coercion of the reals into the extended reals commutes with finite sums. -/
theorem coe_sum {ι : Type} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A finite sum of reals is a real. -/
theorem isR_sum {ι : Type} (s : Finset ι) (f : ι → EReal) (hf : ∀ i ∈ s, IsR (f i)) : IsR (∑ i ∈ s, f i) := by
  classical
  induction s using Finset.induction_on with
  | empty => exact ⟨0, by simp⟩
  | insert a s ha ih =>
    rw [Finset.sum_insert ha]
    exact isR_add (hf a (Finset.mem_insert_self a s)) (ih fun i hi => hf i (Finset.mem_insert_of_mem hi))

/-- The quotient of a real by a nonzero real, as the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The quotient of a real by a nonzero real is a real. -/
theorem isR_div {x y : EReal} (hx : IsR x) (hy : IsR y) (h0 : y ≠ 0) : IsR (Ideal.div x y) := by
  obtain ⟨a, rfl⟩ := hx; obtain ⟨b, rfl⟩ := hy
  have hb : b ≠ 0 := fun h => h0 (by rw [h, EReal.coe_zero])
  exact ⟨a / b, div_coe_coe a hb⟩

/-- The inverse square root of a positive real, as the coercion of the real one. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The inverse square root of a positive real is a real. -/
theorem isR_rsqrt {x : EReal} (hx : ∃ v : ℝ, 0 < v ∧ x = (v : EReal)) : IsR (Ideal.rsqrt x) := by
  obtain ⟨v, hv, rfl⟩ := hx; exact ⟨_, rsqrt_coe_pos hv⟩

/-! ## The two forms of the variance -/

/-- Over the reals: the mean of the squared deviations from the mean is the mean of the squares minus the squared
    mean (for a nonzero count of numbers). -/
theorem variance_real {n : ℕ} (hn : (n : ℝ) ≠ 0) (y : Fin n → ℝ) :
    (∑ p, (y p - (∑ q, y q) / n) * (y p - (∑ q, y q) / n)) / n
      = (∑ p, y p * y p) / n - ((∑ q, y q) / n) * ((∑ q, y q) / n) := by
  generalize hs : (∑ q, y q) = s
  have h1 : ∑ p, (y p - s / n) * (y p - s / n)
      = (∑ p, y p * y p) - 2 * (s / n) * s + n * ((s / n) * (s / n)) := by
    have e : ∀ p, (y p - s / n) * (y p - s / n) = y p * y p - 2 * (s / n) * y p + (s / n) * (s / n) := fun p => by ring
    simp only [e]
    rw [Finset.sum_add_distrib, Finset.sum_sub_distrib, ← Finset.mul_sum, hs, Finset.sum_const, Finset.card_univ,
      Fintype.card_fin, nsmul_eq_mul]
  rw [h1]
  field_simp
  ring

/-- The mean of squared deviations from any number is nonnegative. -/
theorem variance_real_nonneg {n : ℕ} (y : Fin n → ℝ) (m : ℝ) : 0 ≤ (∑ p, (y p - m) * (y p - m)) / n :=
  div_nonneg (Finset.sum_nonneg fun p _ => mul_self_nonneg _) (Nat.cast_nonneg n)

/-- On the extended reals, for a nonzero count n of real entries and the divisor N the real number n: the quotient by N
    of the sum of squared deviations from s / N (s the sum) is the quotient of the sum of squares minus the square of
    s / N; and this common value is a nonnegative real. -/
theorem variance_ereal {n : ℕ} (hn : n ≠ 0) (N : EReal) (hN : N = ((n : ℝ) : EReal)) (f : Fin n → EReal)
    (hf : ∀ p, IsR (f p)) :
    Ideal.div (∑ p, (f p - Ideal.div (∑ q, f q) N) * (f p - Ideal.div (∑ q, f q) N)) N
        = Ideal.div (∑ p, f p * f p) N - Ideal.div (∑ q, f q) N * Ideal.div (∑ q, f q) N
      ∧ ∃ v : ℝ, 0 ≤ v ∧ Ideal.div (∑ p, f p * f p) N - Ideal.div (∑ q, f q) N * Ideal.div (∑ q, f q) N = (v : EReal) := by
  have hn' : (n : ℝ) ≠ 0 := Nat.cast_ne_zero.mpr hn
  choose y hy using hf
  have hfy : f = fun p => ((y p : ℝ) : EReal) := funext hy
  subst hfy; subst hN
  have hS : (∑ q, ((y q : ℝ) : EReal)) = ((∑ q, y q : ℝ) : EReal) := coe_sum _ _
  have hD : Ideal.div (∑ q, ((y q : ℝ) : EReal)) ((n : ℝ) : EReal) = (((∑ q, y q) / n : ℝ) : EReal) := by
    rw [hS, div_coe_coe _ hn']
  have hT : Ideal.div (∑ p, ((y p : ℝ) : EReal) * ((y p : ℝ) : EReal)) ((n : ℝ) : EReal)
      = (((∑ p, y p * y p) / n : ℝ) : EReal) := by
    have : (∑ p, ((y p : ℝ) : EReal) * ((y p : ℝ) : EReal)) = ((∑ p, y p * y p : ℝ) : EReal) := by
      rw [← coe_sum]; exact Finset.sum_congr rfl fun p _ => (EReal.coe_mul _ _).symm
    rw [this, div_coe_coe _ hn']
  have hV : Ideal.div (∑ p, (((y p : ℝ) : EReal) - Ideal.div (∑ q, ((y q : ℝ) : EReal)) ((n : ℝ) : EReal))
        * (((y p : ℝ) : EReal) - Ideal.div (∑ q, ((y q : ℝ) : EReal)) ((n : ℝ) : EReal))) ((n : ℝ) : EReal)
      = (((∑ p, (y p - (∑ q, y q) / n) * (y p - (∑ q, y q) / n)) / n : ℝ) : EReal) := by
    rw [hD]
    have : (∑ p, (((y p : ℝ) : EReal) - (((∑ q, y q) / n : ℝ) : EReal)) * (((y p : ℝ) : EReal) - (((∑ q, y q) / n : ℝ) : EReal)))
        = ((∑ p, (y p - (∑ q, y q) / n) * (y p - (∑ q, y q) / n) : ℝ) : EReal) := by
      rw [← coe_sum]
      exact Finset.sum_congr rfl fun p _ => by rw [← EReal.coe_sub, ← EReal.coe_mul]
    rw [this, div_coe_coe _ hn']
  have hR : Ideal.div (∑ p, ((y p : ℝ) : EReal) * ((y p : ℝ) : EReal)) ((n : ℝ) : EReal)
        - Ideal.div (∑ q, ((y q : ℝ) : EReal)) ((n : ℝ) : EReal) * Ideal.div (∑ q, ((y q : ℝ) : EReal)) ((n : ℝ) : EReal)
      = (((∑ p, y p * y p) / n - ((∑ q, y q) / n) * ((∑ q, y q) / n) : ℝ) : EReal) := by
    rw [hT, hD, ← EReal.coe_mul, ← EReal.coe_sub]
  refine ⟨?_, _, ?_, hR⟩
  · rw [hV, hR, variance_real hn' y]
  · rw [← variance_real hn' y]; exact variance_real_nonneg y _

end Cert.RealSums
-- ==== Proof.LibBlockedSum.lean ====
/-
  A sum over a range cut into consecutive blocks of equal length.  General lemmas: any additive commutative monoid.

  * the sum over the first a·b naturals is the sum, over the a blocks, of each block's b terms: block s holds the
    naturals b·s, b·s + 1, …, b·s + (b − 1);
  * the same with the total written as a sum over `Fin n` for n = a·b, each term guarded by its bound, which is how
    a contraction over n columns read block by block (a product accumulated over a grid axis) meets the one
    contraction of the whole product.
-/
import Mathlib.Algebra.BigOperators.Fin
import Mathlib.Algebra.BigOperators.Intervals

namespace Cert.LibBlockedSum

open Finset

variable {β : Type*} [AddCommMonoid β]

/-- The first a·b terms of a sequence, summed block by block: a blocks of b consecutive terms each. -/
theorem sum_range_blocks (a b : ℕ) (f : ℕ → β) :
    ∑ s ∈ range a, ∑ q : Fin b, f (b * s + q.val) = ∑ k ∈ range (a * b), f k := by
  induction a with
  | zero => simp
  | succ a ih =>
    rw [sum_range_succ, ih, Nat.succ_mul, sum_range_add, Nat.mul_comm a b, Finset.sum_range (fun x => f (b * a + x))]

/-- A sum over `Fin n`, n = a·b, is the sum over the a blocks of each block's b terms; term k of block s is the
    summand at the natural b·s + k, which is below n. -/
theorem sum_fin_blocks (a b n : ℕ) (hn : a * b = n) (g : Fin n → β) :
    ∑ s ∈ range a, ∑ q : Fin b, (if h : b * s + q.val < n then g ⟨b * s + q.val, h⟩ else 0) = ∑ k : Fin n, g k := by
  subst hn
  rw [sum_range_blocks a b (fun k => if h : k < a * b then g ⟨k, h⟩ else 0), Finset.sum_range]
  exact Finset.sum_congr rfl fun k _ => by rw [dif_pos k.isLt]

end Cert.LibBlockedSum
-- ==== Proof.MaskedSums.lean ====
/-
  Masked sums of finitely many extended reals, taken block by block and all at once.

  A row of n = a·b numbers e k comes with one mask bit per entry.  The kernel walks the row in a blocks of b entries;
  in each block it forms the sum of the entries whose bit is set and the sum of all entries, and takes the second minus
  the first as the sum of the entries whose bit is clear.  The reference multiplies every entry by its bit read as the
  number 0 or 1 (for the set part) and by one minus that number (for the clear part) and sums the whole row.

  * Selecting x under a bit is multiplying x by the bit's number; selecting it under the complement is multiplying by
    one minus that number.  Both hold for every extended real, the infinities included (x · 0 = 0, x · 1 = x).
  * The block sums of the selected entries add up to the sum over the whole row: associativity and commutativity only.
  * The block differences "all minus selected" add up to the sum of the unselected entries when every entry is a real
    number: the difference of two sums is then the sum of the differences, which fails at the infinities.
-/
import proofs.«110843_j78434692759648_2_alg».proof.Proof.LibRealSums
import proofs.«110843_j78434692759648_2_alg».proof.Proof.LibBlockedSum
import Idealize.ShloMosaic.Lib.ValueIdx

noncomputable section

namespace Cert.InfoNce

open Idealize.ShloMosaic Finset Cert.RealSums

/-- A family indexed by the naturals below n, read at any natural: zero from n on. -/
def atNat {n : ℕ} (g : Fin n → EReal) (k : ℕ) : EReal := if h : k < n then g ⟨k, h⟩ else 0

theorem atNat_of_lt {n : ℕ} (g : Fin n → EReal) (k : ℕ) (h : k < n) : atNat g k = g ⟨k, h⟩ := dif_pos h

/-- Keeping x where the bit is set is multiplying x by the bit read as a number. -/
theorem select_eq_mul (b : BitVec 1) (x : EReal) : Scalar.select b x 0 = x * ((b.toNat : ℝ) : EReal) := by
  rcases BitVec.eq_zero_or_eq_one b with rfl | rfl
  · rw [ValueIdx.select_zero]
    show 0 = x * (((0 : ℕ) : ℝ) : EReal)
    rw [Nat.cast_zero, EReal.coe_zero, mul_zero]
  · rw [ValueIdx.select_one]
    show x = x * (((1 : ℕ) : ℝ) : EReal)
    rw [Nat.cast_one, EReal.coe_one, mul_one]

/-- Keeping x where the bit is clear is multiplying x by one minus the bit read as a number. -/
theorem select_compl_eq_mul (b : BitVec 1) (x : EReal) :
    Scalar.select b 0 x = x * (1 - ((b.toNat : ℝ) : EReal)) := by
  rcases BitVec.eq_zero_or_eq_one b with rfl | rfl
  · rw [ValueIdx.select_zero]
    show x = x * (1 - (((0 : ℕ) : ℝ) : EReal))
    rw [Nat.cast_zero, EReal.coe_zero, sub_zero, mul_one]
  · rw [ValueIdx.select_one]
    show 0 = x * (1 - (((1 : ℕ) : ℝ) : EReal))
    rw [Nat.cast_one, ← EReal.coe_one, ← EReal.coe_sub, sub_self, EReal.coe_zero, mul_zero]

/-- The sums of a row's a consecutive blocks of b entries add up to the sum of the row. -/
theorem sum_blocks (a b n : ℕ) (hn : a * b = n) (g : Fin n → EReal) :
    ∑ s ∈ range a, ∑ q : Fin b, atNat g (b * s + q.val) = ∑ k : Fin n, g k :=
  Cert.LibBlockedSum.sum_fin_blocks a b n hn g

/-- For real entries r and p: block by block, the sum of the r minus the sum of the p; added up, the sum of r − p. -/
theorem sum_block_differences_real (a b n : ℕ) (hn : a * b = n) (r p : Fin n → ℝ) :
    ∑ s ∈ range a, ((∑ q : Fin b, atNat (fun k => ((r k : ℝ) : EReal)) (b * s + q.val))
        - ∑ q : Fin b, atNat (fun k => ((p k : ℝ) : EReal)) (b * s + q.val))
      = ((∑ k : Fin n, (r k - p k) : ℝ) : EReal) := by
  have hat : ∀ (f : Fin n → ℝ) (j : ℕ),
      atNat (fun k => ((f k : ℝ) : EReal)) j = (((if h : j < n then f ⟨j, h⟩ else 0 : ℝ)) : EReal) := by
    intro f j
    unfold atNat
    split_ifs
    · rfl
    · exact EReal.coe_zero.symm
  simp only [hat]
  have hq : ∀ (f : Fin n → ℝ) (s : ℕ),
      ∑ q : Fin b, (((if h : b * s + q.val < n then f ⟨b * s + q.val, h⟩ else 0 : ℝ)) : EReal)
        = ((∑ q : Fin b, (if h : b * s + q.val < n then f ⟨b * s + q.val, h⟩ else 0) : ℝ) : EReal) :=
    fun f s => coe_sum _ _
  simp only [hq, ← EReal.coe_sub]
  rw [coe_sum]
  congr 1
  rw [← Cert.LibBlockedSum.sum_fin_blocks a b n hn (fun k => r k - p k)]
  refine sum_congr rfl fun s _ => ?_
  rw [← sum_sub_distrib]
  refine sum_congr rfl fun q _ => ?_
  split_ifs
  · rfl
  · exact sub_zero 0

/-- For real entries: the block differences "all minus those under a set bit" add up to the sum of the entries under a
    clear bit. -/
theorem sum_block_differences (a b n : ℕ) (hn : a * b = n) (e : Fin n → EReal) (he : ∀ k, IsR (e k))
    (w : Fin n → BitVec 1) :
    ∑ s ∈ range a, ((∑ q : Fin b, atNat e (b * s + q.val))
        - ∑ q : Fin b, atNat (fun k => Scalar.select (w k) (e k) 0) (b * s + q.val))
      = ∑ k : Fin n, Scalar.select (w k) 0 (e k) := by
  choose r hr using he
  obtain rfl : e = fun k => ((r k : ℝ) : EReal) := funext hr
  have hp : (fun k => Scalar.select (w k) ((r k : ℝ) : EReal) 0)
      = fun k => (((if w k = 1 then r k else 0 : ℝ)) : EReal) := by
    funext k
    unfold Scalar.select
    split_ifs
    · rfl
    · exact EReal.coe_zero.symm
  rw [hp, sum_block_differences_real a b n hn r (fun k => if w k = 1 then r k else 0), ← coe_sum]
  refine sum_congr rfl fun k _ => ?_
  unfold Scalar.select
  split_ifs
  · rw [sub_self, EReal.coe_zero]
  · rw [sub_zero]

end Cert.InfoNce

end
-- ==== Proof.Accumulation.lean ====
/-
  What the two accumulators hold after each grid point, as sums over the arrays the region finds, at the ideal instance.

  Point t = 32·i + j contributes to row p of block i the exponentials of array row r = 512·i + p against keys
  1024·j … 1024·j + 1023: their masked sum to the positive accumulator, and the sum of all of them minus the masked sum
  to the negative one.  At j = 0 the accumulators start from zero, later they add to what the point before left; so
  after point t they hold the contributions of key blocks 0 … j (induction on the point).  Key k of block s is written
  1024·s + q, a natural number below 32768, and a row's terms are read at natural numbers (zero from 32768 on) so that
  the sum over the 32 blocks can later be put together as one sum over all keys.
-/
import proofs.«110843_j78434692759648_2_alg».proof.Proof.Blocks
import proofs.«110843_j78434692759648_2_alg».proof.Proof.Payloads
import proofs.«110843_j78434692759648_2_alg».proof.Proof.MaskedSums

set_option maxRecDepth 16384

noncomputable section

open Idealize.ShloMosaic Idealize.ShloMosaic.TcCoe Idealize.SL.Sem Idealize.ShloMosaic.ValueIdx Finset
open Idealize.ShloMosaic.Pipeline (Dat)

namespace Cert.InfoNce.Kernel

open Cert.KernelIdeal Cert.KernelIdeal.Gen Cert.InfoNce

variable (m : (ℓ : Loc nD τ sig) → Buf (Elt Ideal) ℓ) (c : Dev nD)

/-- The three arrays as the region finds them: the normalised queries and keys, and the mask as 32-bit words. -/
abbrev entryQ : FVec Ideal S4096x256 .bf16 := V m c main_v8
abbrev entryK : FVec Ideal S32768x256 .bf16 := V m c main_v17
abbrev entryW : IVec S4096x32768 32 := V m c main_v18

/-- The exponential of the scaled similarity of query row r and key row k, over the arrays the region finds. -/
def kexp (r : Fin 4096) (k : Fin 32768) : EReal :=
  Ideal.exp ((∑ d : Fin 256, entryQ m c (ix2 r d) * entryK m c (ix2 k d)) * invT)

/-- The mask bit of (r, k): whether the mask word the region finds there is nonzero. -/
def kbit (r : Fin 4096) (k : Fin 32768) : BitVec 1 := IntOp.cmpi .ne (entryW m c (ix2 r k)) 0#32

/-- Row r's exponentials, kept where the mask bit is set. -/
def ksel (r : Fin 4096) : Fin 32768 → EReal := fun k => Scalar.select (kbit m c r k) (kexp m c r k) 0

/-- The body's exponential at entry (p, q) of point t is the exponential of array row 512·i + p and key 1024·j + q. -/
theorem point_exp (t : Fin cfg0.N) (p : Fin 512) (q : Fin 1024) (r : Fin 4096) (k : Fin 32768)
    (hr : r.val = 512 * (t.val / 32) + p.val) (hk : k.val = 1024 * (t.val % 32) + q.val) :
    k0_pay3 (F := Ideal) (iblk m c 0 t) (keyRows (grid0.coords t) (iblk m c 1 t)) (ix2 p q) = kexp m c r k := by
  refine (expLogit_apply (iblk m c 0 t) (keyRows (grid0.coords t) (iblk m c 1 t)) p q).trans ?_
  unfold kexp
  refine congrArg (fun z => Ideal.exp (z * invT)) (Finset.sum_congr rfl fun d _ => ?_)
  rw [queryBlock_apply m c t p d r hr, keyRows_apply m c t q d k hk]

/-- The sum of all exponentials of row p at point t: key block j of row 512·i + p. -/
theorem point_total (t : Fin cfg0.N) (p : Fin 512) (r : Fin 4096) (hr : r.val = 512 * (t.val / 32) + p.val) :
    ∑ q : Fin 1024, k0_pay3 (F := Ideal) (iblk m c 0 t) (keyRows (grid0.coords t) (iblk m c 1 t)) (ix2 p q)
      = ∑ q : Fin 1024, atNat (kexp m c r) (1024 * (t.val % 32) + q.val) := by
  have hN : t.val < 256 := lt_of_lt_of_eq t.isLt N_0
  refine Finset.sum_congr rfl fun q _ => ?_
  have hk : 1024 * (t.val % 32) + q.val < 32768 := by have := q.isLt; omega
  rw [atNat_of_lt _ _ hk]
  exact point_exp m c t p q r ⟨_, hk⟩ hr rfl

/-- The positive contribution of row p at point t: the selected exponentials of key block j of row 512·i + p. -/
theorem point_pos (t : Fin cfg0.N) (p : Fin 512) (u : Fin 1) (r : Fin 4096) (hr : r.val = 512 * (t.val / 32) + p.val) :
    k0_pay4 (F := Ideal) (iblk m c 0 t) (keyRows (grid0.coords t) (iblk m c 1 t)) (iblk m c 2 t) (ix2 p u)
      = ∑ q : Fin 1024, atNat (ksel m c r) (1024 * (t.val % 32) + q.val) := by
  have hN : t.val < 256 := lt_of_lt_of_eq t.isLt N_0
  refine (posPart_apply (iblk m c 0 t) (keyRows (grid0.coords t) (iblk m c 1 t)) (iblk m c 2 t) p u).trans ?_
  refine Finset.sum_congr rfl fun q _ => ?_
  have hk : 1024 * (t.val % 32) + q.val < 32768 := by have := q.isLt; omega
  rw [atNat_of_lt _ _ hk]
  unfold ksel kbit
  rw [point_exp m c t p q r ⟨_, hk⟩ hr rfl, maskBlock_apply m c t p q r ⟨_, hk⟩ hr rfl, Ideal.ofBits_zero_f32]

/-- After the first point of a grid row the accumulators hold that point's contributions. -/
theorem after_first (t : Fin cfg0.N) (h0 : t.val % 32 = 0) (p : Fin 512) (u : Fin 1) (r : Fin 4096)
    (hr : r.val = 512 * (t.val / 32) + p.val) :
    (outsAt0 m c t.val t.isLt).1 (ix2 p u) = ∑ q : Fin 1024, atNat (ksel m c r) (1024 * (t.val % 32) + q.val)
    ∧ (outsAt0 m c t.val t.isLt).2 (ix2 p u)
        = (∑ q : Fin 1024, atNat (kexp m c r) (1024 * (t.val % 32) + q.val))
          - ∑ q : Fin 1024, atNat (ksel m c r) (1024 * (t.val % 32) + q.val) := by
  rw [outs_first m c t h0]
  dsimp only
  constructor
  · refine (posAcc_apply (iblk m c 0 t) (keyRows (grid0.coords t) (iblk m c 1 t)) (iblk m c 2 t) (k0_pay1 (F := Ideal)) p u).trans ?_
    rw [zeroPos_apply, zero_add, point_pos m c t p u r hr]
  · refine (negAcc_apply (iblk m c 0 t) (keyRows (grid0.coords t) (iblk m c 1 t)) (iblk m c 2 t) (k0_pay2 (F := Ideal)) p u).trans ?_
    rw [zeroNeg_apply, zero_add, point_pos m c t p u r hr, point_total m c t p r hr]

/-- After a later point the accumulators hold what the point before left plus the point's contributions. -/
theorem after_later (t : Fin cfg0.N) (h0 : ¬t.val % 32 = 0) (p : Fin 512) (u : Fin 1) (r : Fin 4096)
    (hr : r.val = 512 * (t.val / 32) + p.val) :
    (outsAt0 m c t.val t.isLt).1 (ix2 p u)
        = (outsAt0 m c (t.val - 1) (Nat.lt_of_le_of_lt (Nat.sub_le _ _) t.isLt)).1 (ix2 p u)
          + ∑ q : Fin 1024, atNat (ksel m c r) (1024 * (t.val % 32) + q.val)
    ∧ (outsAt0 m c t.val t.isLt).2 (ix2 p u)
        = (outsAt0 m c (t.val - 1) (Nat.lt_of_le_of_lt (Nat.sub_le _ _) t.isLt)).2 (ix2 p u)
          + ((∑ q : Fin 1024, atNat (kexp m c r) (1024 * (t.val % 32) + q.val))
            - ∑ q : Fin 1024, atNat (ksel m c r) (1024 * (t.val % 32) + q.val)) := by
  rw [outs_later m c t h0]
  dsimp only
  constructor
  · refine (posAcc_apply (iblk m c 0 t) (keyRows (grid0.coords t) (iblk m c 1 t)) (iblk m c 2 t) _ p u).trans ?_
    rw [point_pos m c t p u r hr]
  · refine (negAcc_apply (iblk m c 0 t) (keyRows (grid0.coords t) (iblk m c 1 t)) (iblk m c 2 t) _ p u).trans ?_
    rw [point_pos m c t p u r hr, point_total m c t p r hr]

/-- The same two statements over the point's number. -/
theorem after_first_nat (n : ℕ) (h : n < cfg0.N) (h0 : n % 32 = 0) (p : Fin 512) (u : Fin 1) (r : Fin 4096)
    (hr : r.val = 512 * (n / 32) + p.val) :
    (outsAt0 m c n h).1 (ix2 p u) = ∑ q : Fin 1024, atNat (ksel m c r) (1024 * (n % 32) + q.val)
    ∧ (outsAt0 m c n h).2 (ix2 p u)
        = (∑ q : Fin 1024, atNat (kexp m c r) (1024 * (n % 32) + q.val))
          - ∑ q : Fin 1024, atNat (ksel m c r) (1024 * (n % 32) + q.val) :=
  after_first m c ⟨n, h⟩ h0 p u r hr

theorem after_later_nat (n : ℕ) (h : n + 1 < cfg0.N) (h0 : ¬(n + 1) % 32 = 0) (p : Fin 512) (u : Fin 1) (r : Fin 4096)
    (hr : r.val = 512 * ((n + 1) / 32) + p.val) :
    (outsAt0 m c (n + 1) h).1 (ix2 p u)
        = (outsAt0 m c n (Nat.lt_of_succ_lt h)).1 (ix2 p u)
          + ∑ q : Fin 1024, atNat (ksel m c r) (1024 * ((n + 1) % 32) + q.val)
    ∧ (outsAt0 m c (n + 1) h).2 (ix2 p u)
        = (outsAt0 m c n (Nat.lt_of_succ_lt h)).2 (ix2 p u)
          + ((∑ q : Fin 1024, atNat (kexp m c r) (1024 * ((n + 1) % 32) + q.val))
            - ∑ q : Fin 1024, atNat (ksel m c r) (1024 * ((n + 1) % 32) + q.val)) :=
  after_later m c ⟨n + 1, h⟩ h0 p u r hr

/-- THE RUNNING SUMS.  After point n = 32·i + j the accumulators hold, for row p of block i, the contributions of key
    blocks 0 … j of array row 512·i + p. -/
theorem running_sums (n : ℕ) : ∀ (h : n < cfg0.N) (p : Fin 512) (u : Fin 1) (r : Fin 4096), r.val = 512 * (n / 32) + p.val →
    (outsAt0 m c n h).1 (ix2 p u) = ∑ s ∈ range (n % 32 + 1), ∑ q : Fin 1024, atNat (ksel m c r) (1024 * s + q.val)
    ∧ (outsAt0 m c n h).2 (ix2 p u)
        = ∑ s ∈ range (n % 32 + 1), ((∑ q : Fin 1024, atNat (kexp m c r) (1024 * s + q.val))
            - ∑ q : Fin 1024, atNat (ksel m c r) (1024 * s + q.val)) := by
  have first : ∀ (n : ℕ) (h : n < cfg0.N) (p : Fin 512) (u : Fin 1) (r : Fin 4096), n % 32 = 0 → r.val = 512 * (n / 32) + p.val →
      (outsAt0 m c n h).1 (ix2 p u) = ∑ s ∈ range (n % 32 + 1), ∑ q : Fin 1024, atNat (ksel m c r) (1024 * s + q.val)
      ∧ (outsAt0 m c n h).2 (ix2 p u)
          = ∑ s ∈ range (n % 32 + 1), ((∑ q : Fin 1024, atNat (kexp m c r) (1024 * s + q.val))
              - ∑ q : Fin 1024, atNat (ksel m c r) (1024 * s + q.val)) := by
    intro n h p u r h0 hr
    have e := after_first_nat m c n h h0 p u r hr
    refine ⟨e.1.trans ?_, e.2.trans ?_⟩
    · rw [h0, zero_add, sum_range_one]
    · rw [h0, zero_add, sum_range_one]
  induction n with
  | zero =>
    intro h p u r hr
    exact first 0 h p u r (Nat.zero_mod 32) hr
  | succ n ih =>
    intro h p u r hr
    by_cases h0 : (n + 1) % 32 = 0
    · exact first (n + 1) h p u r h0 hr
    · have e := after_later_nat m c n h h0 p u r hr
      have hd : (n + 1) / 32 = n / 32 := by omega
      have hm : (n + 1) % 32 = n % 32 + 1 := by omega
      have ih' := ih (Nat.lt_of_succ_lt h) p u r (by rw [← hd]; exact hr)
      refine ⟨e.1.trans ?_, e.2.trans ?_⟩
      · rw [ih'.1, hm]
        exact (sum_range_succ _ _).symm
      · rw [ih'.2, hm]
        exact (sum_range_succ _ _).symm

end Cert.InfoNce.Kernel

end
-- ==== Proof.Arrays.lean ====
/-
  The two arrays of sums after the run, at the ideal instance.

  The accumulator windows sit at block i of their [4096, 1] arrays for all 32 points of grid row i and are written back
  once, after the row's last point (j = 31): rows 512·i … 512·i + 511 then hold the sums over all 32 key blocks.  The
  eight write-backs cover the 4096 rows, so each array ends at one function of the row: its block-by-block sums.
-/
import proofs.«110843_j78434692759648_2_alg».proof.Proof.Accumulation

set_option maxRecDepth 16384

noncomputable section

open Idealize.ShloMosaic Idealize.ShloMosaic.TcCoe Idealize.SL.Sem Idealize.ShloMosaic.ValueIdx Finset
open Idealize.ShloMosaic.Pipeline (Dat)

namespace Cert.InfoNce.Kernel

open Cert.KernelIdeal Cert.KernelIdeal.Gen Cert.InfoNce

variable (m : (ℓ : Loc nD τ sig) → Buf (Elt Ideal) ℓ) (c : Dev nD)

/-- Row r's selected exponentials summed key block by key block, and its "all minus selected" block differences summed:
    what the accumulators hold after the last point of a grid row. -/
def rowPosOf (r : Fin 4096) : EReal := ∑ s ∈ range 32, ∑ q : Fin 1024, atNat (ksel m c r) (1024 * s + q.val)
def rowNegOf (r : Fin 4096) : EReal :=
  ∑ s ∈ range 32, ((∑ q : Fin 1024, atNat (kexp m c r) (1024 * s + q.val)) - ∑ q : Fin 1024, atNat (ksel m c r) (1024 * s + q.val))

/-- The two [4096, 1] arrays the region leaves. -/
def posArray : S4096x1.Idx → EReal := fun i => rowPosOf m c ⟨(i 0).val, idx2_lt0 i⟩
def negArray : S4096x1.Idx → EReal := fun i => rowNegOf m c ⟨(i 0).val, idx2_lt0 i⟩

/-- What a write-back of the positive accumulator writes: at the last point of grid row i, rows 512·i … 512·i + 511 of the
    whole-row sums. -/
theorem flushed_pos (t : Fin cfg0.N) (hfl : (cfg0.win 3).flush t = true) :
    (dats m 0 c).flushed 3 t = ((cfg0.win 3).blk t).view.read (Elt Ideal) (posArray m c) := by
  have hN : t.val < 256 := lt_of_lt_of_eq t.isLt N_0
  have h31 : t.val % 32 = 31 := (flush0_3 t).mp hfl
  have hf := index_facts t
  show (cfg0.win 3).cut (grid0.coords t) ((dats m 0 c).after 3 t) = _
  rw [after0_3]
  funext y
  obtain ⟨p, u, rfl⟩ : ∃ (p : Fin 512) (u : Fin 1), y = ix2 p u := ⟨y 0, y 1, eq_ix2 y⟩
  have hp : p.val < 512 := p.isLt
  show (outsAt0 m c t.val t.isLt).1 (ix2 p u) = posArray m c (((cfg0.win 3).blk t).view.emb (ix2 p u))
  rw [(running_sums m c t.val t.isLt p u ⟨512 * (t.val / 32) + p.val, by omega⟩ rfl).1, h31]
  unfold posArray
  refine congrArg (rowPosOf m c) (Fin.ext ?_)
  show 512 * (t.val / 32) + p.val = win0_3.index t (0 : Fin 2) * 512 + 1 * p.val
  rw [hf.2.2.2.2.2.2.1]; omega

/-- Every row of the array lies in the block some write-back writes: row r in that of the last point of grid row r / 512. -/
theorem cover_pos (i : S4096x1.Idx) :
    ∃ t : Fin cfg0.N, (cfg0.win 3).flush t = true ∧ i ∈ ((cfg0.win 3).blk t).view.set := by
  have h0 : (i 0).val < 4096 := idx2_lt0 i
  have h1 : (i 1).val < 1 := idx2_lt1 i
  have hN : cfg0.N = 256 := N_0
  obtain ⟨t, ht⟩ : ∃ t : Fin cfg0.N, t.val = 32 * ((i 0).val / 512) + 31 := ⟨⟨32 * ((i 0).val / 512) + 31, by rw [hN]; omega⟩, rfl⟩
  have hf := index_facts t
  refine ⟨t, (flush0_3 t).mpr (by rw [ht]; omega), ?_⟩
  show i ∈ ((View.whole main_v19_0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [hf.2.2.2.2.2.2.1, ht]; omega
  | ⟨1, _⟩ =>
    show win0_3.index t (1 : Fin 2) * 1 ≤ (i 1).val ∧ (i 1).val < win0_3.index t (1 : Fin 2) * 1 + 1
    rw [hf.2.2.2.2.2.2.2.1]; omega

/-- The positive sums' array after the run. -/
theorem final_pos : (dats m 0 c).arrAt 3 cfg0.N = posArray m c :=
  (dats m 0 c).arrAt_eq_of_cover 3 (posArray m c) (flushed_pos m c) (cover_pos)

/-- What a write-back of the negative accumulator writes: at the last point of grid row i, rows 512·i … 512·i + 511 of the
    whole-row sums. -/
theorem flushed_neg (t : Fin cfg0.N) (hfl : (cfg0.win 4).flush t = true) :
    (dats m 0 c).flushed 4 t = ((cfg0.win 4).blk t).view.read (Elt Ideal) (negArray m c) := by
  have hN : t.val < 256 := lt_of_lt_of_eq t.isLt N_0
  have h31 : t.val % 32 = 31 := (flush0_4 t).mp hfl
  have hf := index_facts t
  show (cfg0.win 4).cut (grid0.coords t) ((dats m 0 c).after 4 t) = _
  rw [after0_4]
  funext y
  obtain ⟨p, u, rfl⟩ : ∃ (p : Fin 512) (u : Fin 1), y = ix2 p u := ⟨y 0, y 1, eq_ix2 y⟩
  have hp : p.val < 512 := p.isLt
  show (outsAt0 m c t.val t.isLt).2 (ix2 p u) = negArray m c (((cfg0.win 4).blk t).view.emb (ix2 p u))
  rw [(running_sums m c t.val t.isLt p u ⟨512 * (t.val / 32) + p.val, by omega⟩ rfl).2, h31]
  unfold negArray
  refine congrArg (rowNegOf m c) (Fin.ext ?_)
  show 512 * (t.val / 32) + p.val = win0_4.index t (0 : Fin 2) * 512 + 1 * p.val
  rw [hf.2.2.2.2.2.2.2.2.1]; omega

/-- Every row of the array lies in the block some write-back writes: row r in that of the last point of grid row r / 512. -/
theorem cover_neg (i : S4096x1.Idx) :
    ∃ t : Fin cfg0.N, (cfg0.win 4).flush t = true ∧ i ∈ ((cfg0.win 4).blk t).view.set := by
  have h0 : (i 0).val < 4096 := idx2_lt0 i
  have h1 : (i 1).val < 1 := idx2_lt1 i
  have hN : cfg0.N = 256 := N_0
  obtain ⟨t, ht⟩ : ∃ t : Fin cfg0.N, t.val = 32 * ((i 0).val / 512) + 31 := ⟨⟨32 * ((i 0).val / 512) + 31, by rw [hN]; omega⟩, rfl⟩
  have hf := index_facts t
  refine ⟨t, (flush0_4 t).mpr (by rw [ht]; omega), ?_⟩
  show i ∈ ((View.whole main_v19_1).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [hf.2.2.2.2.2.2.2.2.1, ht]; omega
  | ⟨1, _⟩ =>
    show win0_4.index t (1 : Fin 2) * 1 ≤ (i 1).val ∧ (i 1).val < win0_4.index t (1 : Fin 2) * 1 + 1
    rw [hf.2.2.2.2.2.2.2.2.2.1]; omega

/-- The negative sums' array after the run. -/
theorem final_neg : (dats m 0 c).arrAt 4 cfg0.N = negArray m c :=
  (dats m 0 c).arrAt_eq_of_cover 4 (negArray m c) (flushed_neg m c) (cover_neg)

end Cert.InfoNce.Kernel

end
-- ==== Proof.Spec.lean ====
/-
  The InfoNCE loss as one function of the normalised queries Q [4096, 256], the normalised keys K [32768, 256] and the
  mask W [4096, 32768], on the extended reals.

  For a query row r and a key row k, E(r, k) = exp((Σ_d Q(r, d) · K(k, d)) · c) with c the reciprocal of the
  temperature.  The positive sum of row r is the sum of E(r, k) over the keys whose mask bit is set, the negative sum
  the sum over the keys whose bit is clear.  The loss is max(−mean_r log(p_r / (p_r + n_r)), 0) with p_r and n_r the two
  sums plus the same small constant; both programs compute this tail by the same operations, so it is carried here as
  one function of the two vectors of sums and never opened.
-/
import Idealize.ShloMosaic.PureOps
import Idealize.ShloMosaic.PureOps.Ideal
import Idealize.ShloMosaic.Lib.ValueIdx

noncomputable section

namespace Cert.InfoNce

open Idealize.ShloMosaic Idealize.ShloMosaic.ValueIdx

/-- The reciprocal of the f32 temperature: 1 / (9395241 / 134217728). -/
abbrev invTemperature : EReal := ((134217728 / 9395241 : ℝ) : EReal)

/-- The exponential of the scaled similarity of query row r and key row k. -/
def expSim (Q : (⟨2, ![4096, 256]⟩ : Shape).Idx → EReal) (K : (⟨2, ![32768, 256]⟩ : Shape).Idx → EReal)
    (r : Fin 4096) (k : Fin 32768) : EReal :=
  Ideal.exp ((∑ d : Fin 256, Q (ix2 r d) * K (ix2 k d)) * invTemperature)

/-- The sum of row r's exponentials over the keys whose mask bit is set. -/
def posSum (Q : (⟨2, ![4096, 256]⟩ : Shape).Idx → EReal) (K : (⟨2, ![32768, 256]⟩ : Shape).Idx → EReal)
    (W : (⟨2, ![4096, 32768]⟩ : Shape).Idx → BitVec 1) (r : Fin 4096) : EReal :=
  ∑ k : Fin 32768, Scalar.select (W (ix2 r k)) (expSim Q K r k) 0

/-- The sum of row r's exponentials over the keys whose mask bit is clear. -/
def negSum (Q : (⟨2, ![4096, 256]⟩ : Shape).Idx → EReal) (K : (⟨2, ![32768, 256]⟩ : Shape).Idx → EReal)
    (W : (⟨2, ![4096, 32768]⟩ : Shape).Idx → BitVec 1) (r : Fin 4096) : EReal :=
  ∑ k : Fin 32768, Scalar.select (W (ix2 r k)) 0 (expSim Q K r k)

/-- The two sums as vectors over the 4096 query rows. -/
def posVec (Q : (⟨2, ![4096, 256]⟩ : Shape).Idx → EReal) (K : (⟨2, ![32768, 256]⟩ : Shape).Idx → EReal)
    (W : (⟨2, ![4096, 32768]⟩ : Shape).Idx → BitVec 1) : FVec Ideal ⟨1, ![4096]⟩ .f32 :=
  fun i => posSum Q K W (i 0)
def negVec (Q : (⟨2, ![4096, 256]⟩ : Shape).Idx → EReal) (K : (⟨2, ![32768, 256]⟩ : Shape).Idx → EReal)
    (W : (⟨2, ![4096, 32768]⟩ : Shape).Idx → BitVec 1) : FVec Ideal ⟨1, ![4096]⟩ .f32 :=
  fun i => negSum Q K W (i 0)

theorem posVec_apply (Q : (⟨2, ![4096, 256]⟩ : Shape).Idx → EReal) (K : (⟨2, ![32768, 256]⟩ : Shape).Idx → EReal)
    (W : (⟨2, ![4096, 32768]⟩ : Shape).Idx → BitVec 1) (n : Fin 4096) : posVec Q K W (ix1 n) = posSum Q K W n := rfl
theorem negVec_apply (Q : (⟨2, ![4096, 256]⟩ : Shape).Idx → EReal) (K : (⟨2, ![32768, 256]⟩ : Shape).Idx → EReal)
    (W : (⟨2, ![4096, 32768]⟩ : Shape).Idx → BitVec 1) (n : Fin 4096) : negVec Q K W (ix1 n) = negSum Q K W n := rfl

/-- From the two vectors of sums to the loss: add the small constant to each, take log(p / (p + n)) row by row, average
    over the 4096 rows, negate, and clamp at zero from below. -/
def lossTail (hb : (⟨0, ![]⟩ : Shape).BroadcastsInDim ⟨1, ![4096]⟩ (![] : Fin 0 → Fin 1))
    (hr : (⟨1, ![4096]⟩ : Shape).ReducesTo [0] ⟨0, ![]⟩) (h0 : 0 < (⟨0, ![]⟩ : Shape).numel)
    (P N : FVec Ideal ⟨1, ![4096]⟩ .f32) : FVec Ideal ⟨0, ![]⟩ .f32 :=
  maximumf
    (Host.negf
      (Host.divf
        (Host.reduceAdd
          (Host.log
            (Host.divf (addf P (broadcastInDim ⟨1, ![4096]⟩ ![] hb (constant (F := Ideal) ⟨0, ![]⟩ .f32 0x322BCC77#32)))
              (addf (addf P (broadcastInDim ⟨1, ![4096]⟩ ![] hb (constant (F := Ideal) ⟨0, ![]⟩ .f32 0x322BCC77#32)))
                (addf N (broadcastInDim ⟨1, ![4096]⟩ ![] hb (constant (F := Ideal) ⟨0, ![]⟩ .f32 0x322BCC77#32))))))
          (constant (F := Ideal) ⟨0, ![]⟩ .f32 0x00000000#32) hr h0)
        (constant (F := Ideal) ⟨0, ![]⟩ .f32 0x45800000#32)))
    (constant (F := Ideal) ⟨0, ![]⟩ .f32 0x00000000#32)

end Cert.InfoNce

end
-- ==== Proof.HostTail.lean ====
/-
  The host operations after the region, at the ideal instance: the loss as the specification's tail of the two arrays
  the region leaves.

  After the region the program reshapes each [4096, 1] array of sums to a vector, adds the small constant to each, takes
  log(p / (p + n)) row by row, averages over the rows, negates and clamps at zero.  Reading the program's last result
  off these eighteen operations, with the two arrays of sums taken from the region's write-backs, gives the
  specification's tail applied to the two reshaped arrays.
-/
import proofs.«110843_j78434692759648_2_alg».proof.Proof.Gen.KernelIdeal.Frame
import proofs.«110843_j78434692759648_2_alg».proof.Proof.Spec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.InfoNce.Kernel

open Cert.KernelIdeal Cert.KernelIdeal.Gen Cert.InfoNce

variable (m : (ℓ : Loc nD τ sig) → Buf (Elt Ideal) ℓ) (c : Dev nD)

set_option maxHeartbeats 2000000 in
/-- The program's result is the tail of the reshaped arrays of sums. -/
theorem tail_eq :
    Pipeline.afterTail₀ cfgs (dats m) 0 (V0 m) [hostOps1] c main_v32
      = lossTail bcast_S_S4096 reducesTo_S4096_S_d0 h_S_
          (shapeCast S4096 ((dats m 0 c).arrAt 3 cfg0.N) shapeCasts_S4096x1_S4096)
          (shapeCast S4096 ((dats m 0 c).arrAt 4 cfg0.N) shapeCasts_S4096x1_S4096) := by
  unfold Pipeline.afterTail₀
  show StableHlo.after hostOps1 _ (Proc.devRef .tc main_v32) = _
  after_results_simp
  have e3 : Pipeline.withArrays (cfgs 0).spec c (V0 m c) (fun w => (dats m 0 c).arrAt w (cfgs 0).N) (Proc.devRef .tc main_v19_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v19_1)
      = (dats m 0 c).arrAt 4 cfg0.N := Pipeline.withArrays_arr spec0 launch0.win.arr_inj c _ _ 4
  rw [e3, e4]
  rfl

end Cert.InfoNce.Kernel
end
-- ==== Proof.EntryArrays.lean ====
/-
  The arrays the region finds, at the ideal instance, in terms of the program's arguments.

  Before the region the program normalises the rows of the queries and of the keys (x / max(sqrt(Σ x²), ε)), changes
  their format (the identity on extended reals) and widens the mask's bits to 32-bit words.  These are the reference's
  own normalisation operations, so the arrays the region finds are the reference's normalised arrays of the same
  arguments; and a widened bit is nonzero exactly when the bit is set.  The kernel's named scale is, by the
  certificate's table, the reciprocal of the f32 temperature.
-/
import proofs.«110843_j78434692759648_2_alg».proof.Proof.Gen.KernelIdeal.Frame
import proofs.«110843_j78434692759648_2_alg».proof.Proof.Gen.ReferenceIdeal.Read
import Idealize.ShloMosaic.Lib.Pipeline.Value
import Idealize.ShloMosaic.Lib.StableHlo.Run
import Idealize.ShloMosaic.Lib.ValueIdx
import Idealize.ShloMosaic.PureOps.IdealRules

set_option maxRecDepth 16384

noncomputable section

open Idealize.ShloMosaic Idealize.ShloMosaic.TcCoe Idealize.SL.Sem Idealize.ShloMosaic.ValueIdx

namespace Cert.InfoNce.Kernel

open Cert.KernelIdeal Cert.KernelIdeal.Gen

variable [hR : Cert.ReferenceIdeal.Facts]
variable (m : (ℓ : Loc nD τ sig) → Buf (Elt Ideal) ℓ) (c : Dev nD)

set_option maxHeartbeats 2000000 in
/-- The query array the region finds is the reference's normalised queries. -/
theorem entry_queries :
    V m c main_v8 = Cert.ReferenceIdeal.Read.val_main_v7 (F := Ideal) (m ((c : Thread nD τ).loc main_arg0)) := by
  show StableHlo.after hostOps0 (fun b => m (c, b)) (Proc.devRef .tc main_v8) = _
  after_results_simp
  rfl

set_option maxHeartbeats 2000000 in
/-- The key array the region finds is the reference's normalised keys. -/
theorem entry_keys :
    V m c main_v17 = Cert.ReferenceIdeal.Read.val_main_v15 (F := Ideal) (m ((c : Thread nD τ).loc main_arg1)) := by
  show StableHlo.after hostOps0 (fun b => m (c, b)) (Proc.devRef .tc main_v17) = _
  after_results_simp
  rfl

set_option maxHeartbeats 2000000 in
/-- The mask array the region finds is the mask's bits widened to words. -/
theorem entry_mask :
    V m c main_v18 = extui 32 (m ((c : Thread nD τ).loc main_arg2)) natLt_1_32 := by
  show StableHlo.after hostOps0 (fun b => m (c, b)) (Proc.devRef .tc main_v18) = _
  after_results_simp

/-- A bit widened to a word is nonzero exactly when it is set. -/
theorem bit_of_word (b : BitVec 1) : IntOp.cmpi .ne (b.setWidth 32) 0#32 = b := by
  revert b; decide

/-- The kernel's named scale is the reciprocal of the f32 temperature. -/
theorem invT_eq : Named.named (F := Ideal) κ "inv_temperature" (φ := .f32) 0x41649249#32 = ((134217728 / 9395241 : ℝ) : EReal) :=
  IdealRules.named_const.ideal_named_scalar _ _ _ _ rfl

end Cert.InfoNce.Kernel
end
-- ==== Proof.RealInputs.lean ====
/-
  Finite inputs are real, and so are their normalised rows.

  At the ideal instance a float is an extended real.  The precondition of the claim says that every entry x of the two
  float arguments satisfies |x| < +∞, where |x| is max x (-x) and +∞ is what the f32 pattern 0x7F800000 denotes.  Part A
  reads this back: an extended real with max x (-x) < ⊤ is neither ⊥ nor ⊤, so it is (the coercion of) a real number.

  Part B is about the row normalisation x ↦ x / max (sqrt (0 + ∑ₖ xₖ · xₖ)) ε of the reference program, ε the positive
  real that the f32 pattern 0x2B8CBCCC denotes (9223372 · 2⁻⁶³, the f32 nearest 10⁻¹²).  For a row of reals the sum of
  squares is a real s ≥ 0, its square root is the real √s, the maximum of two reals is a real, it is at least ε > 0 and
  hence nonzero, and the quotient of a real by a nonzero real is a real.  So every entry of a normalised array is real.
-/
import proofs.«110843_j78434692759648_2_alg».proof.Defs
import proofs.«110843_j78434692759648_2_alg».proof.Proof.Gen.Pre_finite_inputs
import proofs.«110843_j78434692759648_2_alg».proof.Proof.Gen.ReferenceIdeal.Read
import proofs.«110843_j78434692759648_2_alg».proof.Proof.LibRealSums
import Idealize.ShloMosaic.Lib.ReduceAll
import Idealize.ShloMosaic.Lib.ValueIdx

noncomputable section

namespace Cert.RealInputs

open Idealize.ShloMosaic Cert.RealSums

/-! ## Part A: an entry whose absolute value is below +∞ is real -/

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real x with max x (-x) < ⊤ is a real: at x = ⊤ the maximum is ⊤, at x = ⊥ it is -⊥ = ⊤. -/
theorem isR_of_abs_lt_top (x : EReal) (h : max x (-x) < ⊤) : IsR x := by
  induction x using EReal.rec with
  | bot => simp at h
  | coe r => exact ⟨r, rfl⟩
  | top => simp at h

/-- A one-bit word made from a Boolean is 1 exactly when the Boolean is true. -/
theorem ofBool_eq_one_iff (b : Bool) : BitVec.ofBool b = 1#1 ↔ b = true := by cases b <;> decide

/-- The element fact of the precondition: if the ordered comparison |x| < +∞ comes out 1, then x is a real. -/
theorem isR_of_cmp (x : EReal)
    (h : FloatOps.cmpf (F := Ideal) (φ := .f32) .olt (FloatOps.hostAbsf (F := Ideal) (φ := .f32) x)
        (FloatOps.ofBits (F := Ideal) .f32 0x7F800000#32) = 1#1) :
    IsR x := by
  rw [Ideal.hostAbsf_def, Ideal.cmpf_def, Ideal.absf_def, Ideal.ofBits_def, ofBits_inf] at h
  simp only [Ideal.cmp, ofBool_eq_one_iff, decide_eq_true_eq] at h
  exact isR_of_abs_lt_top x h

/-- The rank-0 shape has exactly one index. -/
instance subsingleton_S_Idx : Subsingleton Cert.Pre_finite_inputs.S_.Idx := ⟨fun a b => funext fun d => d.elim0⟩

/-- Under the precondition (the conjunction of the two "all entries have |x| < +∞" reductions is 1) every entry of both
    float arguments is a real.  The conjunction is 1 only if both reductions are; a reduction by "and" over all axes
    is 1 only if every element is; and the element is the comparison read by `isR_of_cmp`. -/
theorem inputs_real [hP : Cert.Pre_finite_inputs.Facts]
    (x0 : FVec Ideal Cert.Pre_finite_inputs.S4096x256 .f32) (x1 : FVec Ideal Cert.Pre_finite_inputs.S32768x256 .f32)
    (x2 : IVec Cert.Pre_finite_inputs.S4096x32768 1)
    (h : Cert.Pre_finite_inputs.fn (F := Ideal) x0 x1 x2 = fun _ => 1#1) :
    (∀ i, Cert.RealSums.IsR (x0 i)) ∧ (∀ i, Cert.RealSums.IsR (x1 i)) := by
  have h0 := congrFun h ValueIdx.ix0
  dsimp only [Cert.Pre_finite_inputs.fn] at h0
  obtain ⟨ha, hb⟩ := IntOp.andi_eq_one.1 h0
  refine ⟨fun i => ?_, fun i => ?_⟩
  · exact isR_of_cmp (x0 i) (Host.reduce_andi_all _ _ _ _ _ ha i)
  · exact isR_of_cmp (x1 i) (Host.reduce_andi_all _ _ _ _ _ hb i)

/-! ## Part B: the normalised rows of real arrays are real -/

/-- The f32 pattern 0x2B8CBCCC (sign 0, exponent 87, fraction 834764) denotes the positive real
    (2²³ + 834764) · 2^(87 - 127 - 23) = 9223372 · 2⁻⁶³. -/
theorem ofBits_eps : ∃ r : ℝ, 0 < r ∧ Ideal.ofBits .f32 0x2B8CBCCC#32 = (r : EReal) := by
  refine ⟨9223372 * (2 ^ 63)⁻¹, by positivity, ?_⟩
  rw [EReal.coe_mul]
  simp [Ideal.ofBits, Ideal.ieee]

/-- The maximum of two reals is a real: it is one of the two. -/
theorem isR_max {x y : EReal} (hx : IsR x) (hy : IsR y) : IsR (max x y) := by
  rcases max_choice x y with h | h <;> rw [h] <;> assumption

/-- The square root of a nonnegative real is the real square root. -/
theorem isR_sqrt_of_nonneg {s : ℝ} (hs : 0 ≤ s) : IsR (Ideal.sqrt (s : EReal)) := by
  rw [Ideal.sqrt_coe, if_neg (not_lt.mpr hs)]; exact isR_coe _

/-- The pointwise core.  For a real a, reals f₀ … fₙ₋₁, z = 0 and e a positive real,
    a / max (sqrt (z + ∑ₖ fₖ · fₖ)) e is a real: the sum of squares is a real s ≥ 0, sqrt s = √s, the maximum with e is a
    real that is at least e > 0, hence nonzero, and a real over a nonzero real is a real. -/
theorem isR_normalised {n : ℕ} (a : EReal) (f : Fin n → EReal) (z e : EReal)
    (ha : IsR a) (hf : ∀ k, IsR (f k)) (hz : z = 0) (he : ∃ r : ℝ, 0 < r ∧ e = (r : EReal)) :
    IsR (Ideal.div a (max (Ideal.sqrt (z + ∑ k, f k * f k)) e)) := by
  obtain ⟨r, hr, rfl⟩ := he
  subst hz
  choose y hy using hf
  have hs : (0 : EReal) + ∑ k, f k * f k = ((∑ k, y k * y k : ℝ) : EReal) := by
    rw [zero_add, ← coe_sum]
    exact Finset.sum_congr rfl fun k _ => by rw [hy k, ← EReal.coe_mul]
  rw [hs]
  have hsq : IsR (Ideal.sqrt ((∑ k, y k * y k : ℝ) : EReal)) :=
    isR_sqrt_of_nonneg (Finset.sum_nonneg fun k _ => mul_self_nonneg _)
  refine isR_div ha (isR_max hsq (isR_coe r)) ?_
  exact (lt_of_lt_of_le (EReal.coe_pos.mpr hr) (le_max_right _ _)).ne'

open Cert.ReferenceIdeal Cert.ReferenceIdeal.Read

/-- Every entry of the normalised queries is a real when every query entry is: the entry at (p, d) is
    x(p, d) / max (sqrt (0 + ∑ₖ x(p, k) · x(p, k))) ε, the pointwise core over the 256 columns of row p. -/
theorem queries_normalised_real [hR : Cert.ReferenceIdeal.Facts]
    (x0 : (⟨S4096x256, .f32⟩ : BufTy).Contents (Elt Ideal)) (h : ∀ i, Cert.RealSums.IsR (x0 i)) (i : S4096x256.Idx) :
    Cert.RealSums.IsR (val_main_v7 (F := Ideal) x0 i) := by
  rw [val_main_v7_apply, val_main_v6_apply, val_main_v5_apply, val_main_v3_apply, val_main_v2_apply, val_main_v1_apply,
    val_main_v4_apply, val_main_cst_0_apply, val_main_cst_apply]
  simp only [val_main_v0_apply, Ideal.hostDivf_def, Ideal.hostUnary_sqrt_def, Ideal.maximumf_def, Ideal.mulf_def,
    Ideal.ofBits_def]
  exact isR_normalised (x0 i) (fun k => x0 (idx_main_v1 _ k)) _ _ (h i) (fun k => h _) Ideal.ofBits_zero_f32 ofBits_eps

/-- Every entry of the normalised keys is a real when every key entry is: the same pointwise core over the 256 columns
    of a key row. -/
theorem keys_normalised_real [hR : Cert.ReferenceIdeal.Facts]
    (x1 : (⟨S32768x256, .f32⟩ : BufTy).Contents (Elt Ideal)) (h : ∀ i, Cert.RealSums.IsR (x1 i)) (i : S32768x256.Idx) :
    Cert.RealSums.IsR (val_main_v15 (F := Ideal) x1 i) := by
  rw [val_main_v15_apply, val_main_v14_apply, val_main_v13_apply, val_main_v11_apply, val_main_v10_apply, val_main_v9_apply,
    val_main_v12_apply, val_main_cst_2_apply, val_main_cst_1_apply]
  simp only [val_main_v8_apply, Ideal.hostDivf_def, Ideal.hostUnary_sqrt_def, Ideal.maximumf_def, Ideal.mulf_def,
    Ideal.ofBits_def]
  exact isR_normalised (x1 i) (fun k => x1 (idx_main_v9 _ k)) _ _ (h i) (fun k => h _) Ideal.ofBits_zero_f32 ofBits_eps

end Cert.RealInputs

end
-- ==== Proof.KernelValue.lean ====
/-
  The kernel program's result, at the ideal instance, as the specification's loss of its arguments.

  The arrays the region leaves hold, row by row, the block-by-block sums of the accumulation; put together over the 32
  key blocks they are the specification's positive and negative sums of the normalised arguments.  For the positive
  sums this is a regrouping of one sum.  For the negative sums each block contributes "all minus selected", and adding
  these differences up to the sum of the unselected exponentials needs every exponential to be a real number: it is,
  because finite inputs have real normalised rows, a finite sum of products of reals is real, and exp of a real is
  real.  The host operations after the region then apply the specification's tail.
-/
import proofs.«110843_j78434692759648_2_alg».proof.Proof.Arrays
import proofs.«110843_j78434692759648_2_alg».proof.Proof.HostTail
import proofs.«110843_j78434692759648_2_alg».proof.Proof.EntryArrays
import proofs.«110843_j78434692759648_2_alg».proof.Proof.RealInputs

set_option maxRecDepth 16384

noncomputable section

open Idealize.ShloMosaic Idealize.ShloMosaic.TcCoe Idealize.SL.Sem Idealize.ShloMosaic.ValueIdx Finset
open Idealize.ShloMosaic.Pipeline (Dat)

namespace Cert.InfoNce.Kernel

open Cert.KernelIdeal Cert.KernelIdeal.Gen Cert.InfoNce Cert.RealSums

variable [hR : Cert.ReferenceIdeal.Facts] [hP : Cert.Pre_finite_inputs.Facts]
variable (m : (ℓ : Loc nD τ sig) → Buf (Elt Ideal) ℓ) (c : Dev nD)

/-- The normalised queries and keys of the program's arguments, and its mask. -/
abbrev argQ : (⟨2, ![4096, 256]⟩ : Shape).Idx → EReal :=
  Cert.ReferenceIdeal.Read.val_main_v7 (F := Ideal) (m ((c : Thread nD τ).loc main_arg0))
abbrev argK : (⟨2, ![32768, 256]⟩ : Shape).Idx → EReal :=
  Cert.ReferenceIdeal.Read.val_main_v15 (F := Ideal) (m ((c : Thread nD τ).loc main_arg1))
abbrev argW : (⟨2, ![4096, 32768]⟩ : Shape).Idx → BitVec 1 := m ((c : Thread nD τ).loc main_arg2)

/-- The kernel's exponential is the specification's. -/
theorem kexp_eq (r : Fin 4096) (k : Fin 32768) : kexp m c r k = expSim (argQ m c) (argK m c) r k := by
  unfold kexp expSim entryQ entryK argQ argK
  rw [entry_queries m c, entry_keys m c]
  exact congrArg (fun z => Ideal.exp (_ * z)) invT_eq

/-- The kernel's mask bit is the mask's bit. -/
theorem kbit_eq (r : Fin 4096) (k : Fin 32768) : kbit m c r k = argW m c (ix2 r k) := by
  unfold kbit entryW argW
  rw [entry_mask m c]
  exact bit_of_word _

/-- The exponential of a real is a real. -/
theorem isR_exp {x : EReal} (hx : IsR x) : IsR (Ideal.exp x) := by
  obtain ⟨a, rfl⟩ := hx
  exact ⟨Real.exp a, rfl⟩

/-- Under the precondition every exponential is a real number. -/
theorem kexp_real
    (hpre : Cert.Pre_finite_inputs.fn (F := Ideal) (m ((c : Thread nD τ).loc main_arg0)) (m ((c : Thread nD τ).loc main_arg1))
      (m ((c : Thread nD τ).loc main_arg2)) = fun _ => 1#1)
    (r : Fin 4096) (k : Fin 32768) : IsR (kexp m c r k) := by
  obtain ⟨h0, h1⟩ := Cert.RealInputs.inputs_real _ _ _ hpre
  rw [kexp_eq]
  unfold expSim
  exact isR_exp (isR_mul (isR_sum _ _ fun d _ =>
    isR_mul (Cert.RealInputs.queries_normalised_real _ h0 _) (Cert.RealInputs.keys_normalised_real _ h1 _)) (isR_coe _))

/-- A row's block-by-block positive sums are the specification's positive sum. -/
theorem rowPos_eq (n : Fin 4096) : rowPosOf m c n = posSum (argQ m c) (argK m c) (argW m c) n := by
  unfold rowPosOf
  refine (sum_blocks 32 1024 32768 rfl (ksel m c n)).trans ?_
  unfold posSum ksel
  refine sum_congr rfl fun k _ => ?_
  rw [kbit_eq, kexp_eq]

/-- A row's block-by-block differences add up to the specification's negative sum, the exponentials being real. -/
theorem rowNeg_eq
    (hpre : Cert.Pre_finite_inputs.fn (F := Ideal) (m ((c : Thread nD τ).loc main_arg0)) (m ((c : Thread nD τ).loc main_arg1))
      (m ((c : Thread nD τ).loc main_arg2)) = fun _ => 1#1)
    (n : Fin 4096) : rowNegOf m c n = negSum (argQ m c) (argK m c) (argW m c) n := by
  unfold rowNegOf ksel
  refine (sum_block_differences 32 1024 32768 rfl (kexp m c n) (fun k => kexp_real m c hpre n k) (kbit m c n)).trans ?_
  unfold negSum
  refine sum_congr rfl fun k _ => ?_
  rw [kbit_eq, kexp_eq]

/-- The positive sums' array, reshaped to a vector, is the specification's vector of positive sums. -/
theorem posVec_eq : shapeCast S4096 (posArray m c) shapeCasts_S4096x1_S4096 = posVec (argQ m c) (argK m c) (argW m c) := by
  funext i
  obtain ⟨n, rfl⟩ : ∃ n : Fin 4096, i = ix1 n := ⟨i 0, eq_ix1 i⟩
  refine (vector_of_column (posArray m c) shapeCasts_S4096x1_S4096 n).trans ?_
  rw [posVec_apply]
  exact rowPos_eq m c n

/-- The negative sums' array, reshaped to a vector, is the specification's vector of negative sums. -/
theorem negVec_eq
    (hpre : Cert.Pre_finite_inputs.fn (F := Ideal) (m ((c : Thread nD τ).loc main_arg0)) (m ((c : Thread nD τ).loc main_arg1))
      (m ((c : Thread nD τ).loc main_arg2)) = fun _ => 1#1) :
    shapeCast S4096 (negArray m c) shapeCasts_S4096x1_S4096 = negVec (argQ m c) (argK m c) (argW m c) := by
  funext i
  obtain ⟨n, rfl⟩ : ∃ n : Fin 4096, i = ix1 n := ⟨i 0, eq_ix1 i⟩
  refine (vector_of_column (negArray m c) shapeCasts_S4096x1_S4096 n).trans ?_
  rw [negVec_apply]
  exact rowNeg_eq m c hpre n

/-- THE KERNEL PROGRAM'S RESULT: the specification's tail of the specification's sums of the normalised arguments. -/
theorem result_eq
    (hpre : Cert.Pre_finite_inputs.fn (F := Ideal) (m ((c : Thread nD τ).loc main_arg0)) (m ((c : Thread nD τ).loc main_arg1))
      (m ((c : Thread nD τ).loc main_arg2)) = fun _ => 1#1) :
    Pipeline.afterTail₀ cfgs (dats m) 0 (V0 m) [hostOps1] c main_v32
      = lossTail bcast_S_S4096 reducesTo_S4096_S_d0 h_S_
          (posVec (argQ m c) (argK m c) (argW m c)) (negVec (argQ m c) (argK m c) (argW m c)) := by
  rw [tail_eq m c, final_pos m c, final_neg m c, posVec_eq m c, negVec_eq m c hpre]

/-- The run, read: the result at the specification's loss, the arguments unchanged. -/
theorem run (ρ : Dev nD → PrngReg) (hpre : Cert.Pre_KernelIdeal m) :
    θ_run defs (onTc (τ := τ) (main (F := Ideal))) ⟨m, fun _ => 0, ρ⟩ fun r => ∀ c : Dev nD,
      r.2.mem ((c.tc : Thread nD τ).loc main_v32)
          = lossTail bcast_S_S4096 reducesTo_S4096_S_d0 h_S_
              (posVec (argQ m c) (argK m c) (argW m c)) (negVec (argQ m c) (argK m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v32 (Pipeline.mem_restRefs_of main_v32 (by decide) (by decide))).trans (result_eq m c (hpre c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.InfoNce.Kernel

end
-- ==== Proof.Consts.lean ====
/-
  The float constants of the reference whose values the proof needs: 1.0, and the temperature 0.07 as the f32 number
  the reference divides by.  Its pattern 0x3D8F5C29 has biased exponent 123 and fraction 1006633, so it denotes
  (2^23 + 1006633) / 2^27 = 9395241 / 134217728, the dyadic rational nearest 0.07.  The kernel multiplies by the
  reciprocal of exactly this number (named in its table), so dividing by the one is multiplying by the other.
-/
import Idealize.ShloMosaic.PureOps.Ideal

noncomputable section

namespace Cert.InfoNce

open Idealize.ShloMosaic

/-- The f32 number written 0.07 is the rational 9395241 / 134217728. -/
theorem ofBits_temperature : Ideal.ofBits .f32 0x3D8F5C29#32 = ((9395241 / 134217728 : ℝ) : EReal) := by
  simp [Ideal.ofBits, Ideal.ieee, -EReal.coe_mul]; norm_num

/-- The f32 number 1.0 is the real 1. -/
theorem ofBits_one : Ideal.ofBits .f32 0x3F800000#32 = 1 := by
  simp [Ideal.ofBits, Ideal.ieee, -EReal.coe_mul]; norm_num

/-- Division by the temperature is multiplication by its reciprocal, on every extended real. -/
theorem div_temperature (x : EReal) :
    Ideal.div x (Ideal.ofBits .f32 0x3D8F5C29#32) = x * ((134217728 / 9395241 : ℝ) : EReal) := by
  rw [ofBits_temperature, Ideal.div_coe (by norm_num : (9395241 / 134217728 : ℝ) ≠ 0)]
  congr 2
  norm_num

end Cert.InfoNce

end
-- ==== Proof.Reference.lean ====
/-
  The reference program computes the specification's positive and negative sums, and then the specification's tail.

  Write Q and K for the normalised queries and keys, t for the f32 temperature and w(n, k) ∈ {0, 1} for the mask bit
  of query row n and key row k read as a number.  Row n of the reference's first masked sum is
      0 + Σ_k exp((Σ_d Q(n, d) · K(k, d)) / t) · w(n, k).
  Dividing by t is multiplying by its reciprocal c, so the exponential is the specification's E(n, k); and E · w is E
  where the bit is set and 0 where it is clear.  Hence the row is the positive sum.  The second masked sum has 1 − w in
  place of w, and E · (1 − w) is E where the bit is clear and 0 where it is set: the negative sum.  Neither step needs
  any entry to be finite: x · 0 = 0 and x · 1 = x for every extended real x.  The operations that follow the two sums
  are, one by one, those of the specification's tail, applied to the two vectors of sums.
-/
import proofs.«110843_j78434692759648_2_alg».proof.Proof.Gen.ReferenceIdeal.Read
import proofs.«110843_j78434692759648_2_alg».proof.Proof.Spec
import proofs.«110843_j78434692759648_2_alg».proof.Proof.Consts
import proofs.«110843_j78434692759648_2_alg».proof.Proof.MaskedSums

noncomputable section

namespace Cert.InfoNce.Reference

open Cert.ReferenceIdeal Cert.ReferenceIdeal.Read Idealize.ShloMosaic Idealize.ShloMosaic.ValueIdx

/-! ## The composed indices -/

/-- Summand k of row n of the first masked sum is read at (n, k). -/
theorem idx_v22 (n : Fin 4096) (k : Fin 32768) : idx_main_v22 (ix1 n) k = ix2 n k :=
  funext fun a => Fin.ext (by match a with | ⟨0, _⟩ => rfl | ⟨1, _⟩ => rfl)

/-- Summand k of row n of the second masked sum is read at (n, k). -/
theorem idx_v28 (n : Fin 4096) (k : Fin 32768) : idx_main_v28 (ix1 n) k = ix2 n k :=
  funext fun a => Fin.ext (by match a with | ⟨0, _⟩ => rfl | ⟨1, _⟩ => rfl)

/-- Term d of the similarity of query row n and key row k reads the queries at (n, d). -/
theorem lidx_v16 (n : Fin 4096) (k : Fin 32768) (d : Fin 256) : lidx_main_v16 (ix2 n k) d = ix2 n d :=
  funext fun a => Fin.ext (by match a with | ⟨0, _⟩ => rfl | ⟨1, _⟩ => rfl)

/-- Term d of the similarity of query row n and key row k reads the keys at (k, d). -/
theorem ridx_v16 (n : Fin 4096) (k : Fin 32768) (d : Fin 256) : ridx_main_v16 (ix2 n k) d = ix2 k d :=
  funext fun a => Fin.ext (by match a with | ⟨0, _⟩ => rfl | ⟨1, _⟩ => rfl)

/-! ## The exponential of the scaled similarity -/

/-- A mask bit converted to a float is the bit read as the number 0 or 1. -/
theorem uitofp_bit (b : BitVec 1) : FloatOps.uitofp (F := Ideal) .f32 b = ((b.toNat : ℝ) : EReal) := rfl

/-- The reference's exponential at (n, k) is exp((Σ_d Q(n, d) · K(k, d)) / t); division by the temperature t is
    multiplication by its reciprocal, which makes it the specification's E(n, k). -/
theorem exp_eq (x0 : (⟨S4096x256, .f32⟩ : BufTy).Contents (Elt Ideal)) (x1 : (⟨S32768x256, .f32⟩ : BufTy).Contents (Elt Ideal))
    (n : Fin 4096) (k : Fin 32768) :
    val_main_v19 (F := Ideal) x0 x1 (ix2 n k)
      = Cert.InfoNce.expSim (val_main_v7 (F := Ideal) x0) (val_main_v15 (F := Ideal) x1) n k := by
  rw [val_main_v19_apply, val_main_v18_apply, val_main_v17_apply, val_main_cst_3_apply, val_main_v16_apply,
    Ideal.hostUnary_exp_def, Ideal.hostDivf_def, Ideal.ofBits_def, Cert.InfoNce.div_temperature]
  unfold Cert.InfoNce.expSim
  simp only [lidx_v16, ridx_v16]

/-! ## The two masked sums -/

/-- Row n of the first masked sum, 0 + Σ_k E(n, k) · w(n, k), is the positive sum: E · w is E kept under a set bit. -/
theorem pos_eq [hR : Cert.ReferenceIdeal.Facts]
    (x0 : (⟨S4096x256, .f32⟩ : BufTy).Contents (Elt Ideal)) (x1 : (⟨S32768x256, .f32⟩ : BufTy).Contents (Elt Ideal))
    (x2 : (⟨S4096x32768, .i1⟩ : BufTy).Contents (Elt Ideal)) (n : Fin 4096) :
    val_main_v22 (F := Ideal) x0 x1 x2 (ix1 n)
      = Cert.InfoNce.posSum (val_main_v7 (F := Ideal) x0) (val_main_v15 (F := Ideal) x1) x2 n := by
  rw [val_main_v22_apply, val_main_cst_4_apply, Ideal.ofBits_def, Ideal.ofBits_zero_f32, zero_add]
  unfold Cert.InfoNce.posSum
  refine Finset.sum_congr rfl fun k _ => ?_
  rw [idx_v22, val_main_v21_apply, val_main_v20_apply, Ideal.mulf_def, exp_eq, uitofp_bit, Cert.InfoNce.select_eq_mul]

/-- Row n of the second masked sum, 0 + Σ_k E(n, k) · (1 − w(n, k)), is the negative sum: E · (1 − w) is E kept under
    a clear bit. -/
theorem neg_eq [hR : Cert.ReferenceIdeal.Facts]
    (x0 : (⟨S4096x256, .f32⟩ : BufTy).Contents (Elt Ideal)) (x1 : (⟨S32768x256, .f32⟩ : BufTy).Contents (Elt Ideal))
    (x2 : (⟨S4096x32768, .i1⟩ : BufTy).Contents (Elt Ideal)) (n : Fin 4096) :
    val_main_v28 (F := Ideal) x0 x1 x2 (ix1 n)
      = Cert.InfoNce.negSum (val_main_v7 (F := Ideal) x0) (val_main_v15 (F := Ideal) x1) x2 n := by
  rw [val_main_v28_apply, val_main_cst_7_apply, Ideal.ofBits_def, Ideal.ofBits_zero_f32, zero_add]
  unfold Cert.InfoNce.negSum
  refine Finset.sum_congr rfl fun k _ => ?_
  rw [idx_v28, val_main_v27_apply, val_main_v26_apply, val_main_v25_apply, val_main_cst_6_apply, val_main_v20_apply,
    Ideal.mulf_def, Ideal.subf_def, Ideal.ofBits_def, Cert.InfoNce.ofBits_one, exp_eq, uitofp_bit,
    Cert.InfoNce.select_compl_eq_mul]

/-! ## The tail -/

open Facts₀ Facts in
/-- The result of the reference is the specification's tail of its two vectors of sums: after the sums the program
    adds the small constant to each, divides, takes logarithms, averages over the 4096 rows, negates and clamps at
    zero, operation for operation as the tail is defined. -/
theorem tail_eq [hR : Cert.ReferenceIdeal.Facts]
    (x0 : (⟨S4096x256, .f32⟩ : BufTy).Contents (Elt Ideal)) (x1 : (⟨S32768x256, .f32⟩ : BufTy).Contents (Elt Ideal))
    (x2 : (⟨S4096x32768, .i1⟩ : BufTy).Contents (Elt Ideal)) :
    val_main_v37 (F := Ideal) x0 x1 x2
      = Cert.InfoNce.lossTail bcast_S_S4096 reducesTo_S4096_S_d0 h_S_ (val_main_v22 (F := Ideal) x0 x1 x2)
          (val_main_v28 (F := Ideal) x0 x1 x2) := by
  unfold Cert.InfoNce.lossTail val_main_v37 val_main_v36 val_main_v35 val_main_v34 val_main_v33 val_main_v32 val_main_v31
    val_main_v30 val_main_v29 val_main_v24 val_main_v23 val_main_cst_5 val_main_cst_8 val_main_cst_9 val_main_cst_10
    val_main_cst_11
  rfl

end Cert.InfoNce.Reference

end
-- ==== Proof.lean ====
/-
  InfoNCE loss: the kernel program against its jnp reference, on the extended reals.

  Both programs L2-normalise the rows of the queries [4096, 256] and of the keys [32768, 256] by the same operations,
  form E(r, k) = exp of the scaled similarity of query row r and key row k, sum E over the keys whose mask bit is set
  (the positive sum) and over the keys whose bit is clear (the negative sum), and finish with the same tail,
  max(−mean_r log(p_r / (p_r + n_r)), 0).  They differ in three places.

  * The scale.  The reference divides the similarity by the f32 temperature t = 9395241 / 134217728; the kernel
    multiplies by the reciprocal 1 / t, which its table names exactly.  Division by a nonzero real is multiplication
    by its reciprocal on every extended real.
  * The order of the sums.  The kernel walks the keys in 32 blocks of 1024 over a grid axis, accumulating per block
    into two resident columns that are written back after the last block; the reference sums each row at once.
    A sum of block sums is the sum: associativity and commutativity.
  * The negative sum.  The reference sums E · (1 − w) with w the bit as a number; the kernel takes, per block, the sum
    of all E minus the sum of the selected E.  These agree when every E is a real number, which the precondition
    gives: finite inputs have real normalised rows, so every similarity and every exponential is real.

  The three frames are the generated frame runs (the reference's its generated run), and the one rewrite of the
  idealisation, the named scale, is stated by its rule.
-/
import proofs.«110843_j78434692759648_2_alg».proof.Defs
import proofs.«110843_j78434692759648_2_alg».proof.Proof.Gen.Kernel
import proofs.«110843_j78434692759648_2_alg».proof.Proof.Gen.Kernel.Skeleton
import proofs.«110843_j78434692759648_2_alg».proof.Proof.Gen.Kernel.Launch
import proofs.«110843_j78434692759648_2_alg».proof.Proof.Gen.Kernel.Points
import proofs.«110843_j78434692759648_2_alg».proof.Proof.Gen.Kernel.Frame
import proofs.«110843_j78434692759648_2_alg».proof.Proof.Gen.KernelIdeal
import proofs.«110843_j78434692759648_2_alg».proof.Proof.Gen.KernelIdeal.Skeleton
import proofs.«110843_j78434692759648_2_alg».proof.Proof.Gen.KernelIdeal.Launch
import proofs.«110843_j78434692759648_2_alg».proof.Proof.Gen.KernelIdeal.Points
import proofs.«110843_j78434692759648_2_alg».proof.Proof.Gen.KernelIdeal.Frame
import proofs.«110843_j78434692759648_2_alg».proof.Proof.Gen.ReferenceIdeal
import proofs.«110843_j78434692759648_2_alg».proof.Proof.Gen.Pre_finite_inputs
import proofs.«110843_j78434692759648_2_alg».proof.Proof.Gen.ReferenceIdeal.Run
import proofs.«110843_j78434692759648_2_alg».proof.Proof.Gen.ReferenceIdeal.Read
import proofs.«110843_j78434692759648_2_alg».proof.Proof.KernelValue
import proofs.«110843_j78434692759648_2_alg».proof.Proof.Reference
import Idealize.ShloMosaic.PureOps.IdealRules
import Idealize.ShloMosaic.Adequacy
import Idealize.ShloMosaic.Init

noncomputable section

namespace Cert.Proof

open Idealize.ShloMosaic Idealize.ShloMosaic.ValueIdx Idealize.SL.Sem

/-- The word-level kernel program runs and leaves its arguments as they were: the generated frame. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation's one rewrite: the kernel's scale is, by the certificate's table, the reciprocal of the f32
    temperature. -/
theorem preserves : Cert.preserves_Kernel_KernelIdeal :=
  IdealRules.named_const.statement Cert.KernelIdeal.κ "inv_temperature" .f32 0x41649249#32
    ((134217728 / 9395241 : ℝ) : EReal) rfl

section Reference

open Cert.ReferenceIdeal Cert.ReferenceIdeal.Read Cert.InfoNce

/-- The reference's vector of first masked sums is the specification's vector of positive sums. -/
theorem reference_posVec (x0 : (⟨S4096x256, .f32⟩ : BufTy).Contents (Elt Ideal)) (x1 : (⟨S32768x256, .f32⟩ : BufTy).Contents (Elt Ideal))
    (x2 : (⟨S4096x32768, .i1⟩ : BufTy).Contents (Elt Ideal)) :
    val_main_v22 (F := Ideal) x0 x1 x2 = posVec (val_main_v7 (F := Ideal) x0) (val_main_v15 (F := Ideal) x1) x2 := by
  funext i
  obtain ⟨n, rfl⟩ : ∃ n : Fin 4096, i = ix1 n := ⟨i 0, eq_ix1 i⟩
  exact Cert.InfoNce.Reference.pos_eq x0 x1 x2 n

/-- The reference's vector of second masked sums is the specification's vector of negative sums. -/
theorem reference_negVec (x0 : (⟨S4096x256, .f32⟩ : BufTy).Contents (Elt Ideal)) (x1 : (⟨S32768x256, .f32⟩ : BufTy).Contents (Elt Ideal))
    (x2 : (⟨S4096x32768, .i1⟩ : BufTy).Contents (Elt Ideal)) :
    val_main_v28 (F := Ideal) x0 x1 x2 = negVec (val_main_v7 (F := Ideal) x0) (val_main_v15 (F := Ideal) x1) x2 := by
  funext i
  obtain ⟨n, rfl⟩ : ∃ n : Fin 4096, i = ix1 n := ⟨i 0, eq_ix1 i⟩
  exact Cert.InfoNce.Reference.neg_eq x0 x1 x2 n

end Reference

/-- At the ideal instance, from memories that agree on the arguments, both programs end at the specification's loss of
    the same normalised queries, normalised keys and mask. -/
theorem algebraic : Cert.algebraic_KernelIdeal_ReferenceIdeal := by
  intro m ρ m' ρ' hpre hagree
  refine ⟨_, Cert.InfoNce.Kernel.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.InfoNce.Reference.tail_eq, reference_posVec, reference_negVec,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
